-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x256 : Shape := ⟨4, ![16, 64, 64, 256]⟩
abbrev S256x768 : Shape := ⟨2, ![256, 768]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S16x64x64x256 : S_.BroadcastsInDim S16x64x64x256 (![] : Fin 0 → Fin S16x64x64x256.rank)
  reducesTo_S16x64x64x256_S_d0_1_2_3 : S16x64x64x256.ReducesTo [0, 1, 2, 3] S_
  h_S_ : 0 < S_.numel
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x64x64x256 .f32) (main_arg1 : FVec F S256x768 .f32) (main_arg2 : FVec F S768 .f32) (main_arg3 : FVec F S256x256 .f32) (main_arg4 : FVec F S256 .f32) : IVec S_ 1 :=
  let main_v0 : FVec F S16x64x64x256 .f32 := Host.absf main_arg0
  let main_cst : FVec F S_ .f32 := constant S_ .f32 0x7F800000#32
  let main_v1 : FVec F S16x64x64x256 .f32 := broadcastInDim S16x64x64x256 ![] bcast_S_S16x64x64x256 main_cst
  let main_v2 : IVec S16x64x64x256 1 := cmpf .olt main_v0 main_v1
  let main_c : IVec S_ 1 := constantI S_ 1 1#1
  let main_v3 : IVec S_ 1 := (fun x v => Host.reduce IntOp.andi x v reducesTo_S16x64x64x256_S_d0_1_2_3 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S16x64x64x256 : Shape := ⟨4, ![16, 64, 64, 256]⟩
abbrev S256x768 : Shape := ⟨2, ![256, 768]⟩
abbrev S768 : Shape := ⟨1, ![768]⟩
abbrev S256x256 : Shape := ⟨2, ![256, 256]⟩
abbrev S256 : Shape := ⟨1, ![256]⟩
abbrev S65536x256 : Shape := ⟨2, ![65536, 256]⟩
abbrev S512x256 : Shape := ⟨2, ![512, 256]⟩
abbrev S512x768 : Shape := ⟨2, ![512, 768]⟩
abbrev S1x768 : Shape := ⟨2, ![1, 768]⟩
abbrev S512x8x32 : Shape := ⟨3, ![512, 8, 32]⟩
abbrev S512x1x32 : Shape := ⟨3, ![512, 1, 32]⟩
abbrev S512x8 : Shape := ⟨2, ![512, 8]⟩
abbrev S512x8x1 : Shape := ⟨3, ![512, 8, 1]⟩
abbrev S512x8x8 : Shape := ⟨3, ![512, 8, 8]⟩
abbrev S1x256 : Shape := ⟨2, ![1, 256]⟩

abbrev nBuf : Space → Nat
  | .hbm => 10
  | .vmem => 8
  | .smem => 0
  | _ => 0

abbrev bufTy : (tb : Table) → Fin (tcTables nBuf tb) → BufTy
  | .hbm, ⟨0, _⟩ => ⟨S16x64x64x256, .f32⟩
  | .hbm, ⟨1, _⟩ => ⟨S256x768, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S65536x256, .f32⟩
  | .hbm, ⟨6, _⟩ => ⟨S256x768, .bf16⟩
  | .hbm, ⟨7, _⟩ => ⟨S256x256, .bf16⟩
  | .hbm, ⟨8, _⟩ => ⟨S65536x256, .f32⟩
  | .hbm, ⟨9, _⟩ => ⟨S16x64x64x256, .f32⟩
  | .local _ .vmem, ⟨0, _⟩ => ⟨S512x256, .f32⟩
  | .local _ .vmem, ⟨1, _⟩ => ⟨S512x256, .f32⟩
  | .local _ .vmem, ⟨2, _⟩ => ⟨S256x768, .bf16⟩
  | .local _ .vmem, ⟨3, _⟩ => ⟨S768, .f32⟩
  | .local _ .vmem, ⟨4, _⟩ => ⟨S256x256, .bf16⟩
  | .local _ .vmem, ⟨5, _⟩ => ⟨S256, .f32⟩
  | .local _ .vmem, ⟨6, _⟩ => ⟨S512x256, .f32⟩
  | .local _ .vmem, ⟨7, _⟩ => ⟨S512x256, .f32⟩
  | _, _ => ⟨S16x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x64x64x256_S65536x256 : S16x64x64x256.ShapeCasts S65536x256
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  slices_S512x768_o0_0_S512x256 : S512x768.Slices ![0, 0] S512x256
  shapeCasts_S512x256_S512x8x32 : S512x256.ShapeCasts S512x8x32
  slices_S512x768_o0_256_S512x256 : S512x768.Slices ![0, 256] S512x256
  slices_S512x768_o0_512_S512x256 : S512x768.Slices ![0, 512] S512x256
  slices_S512x8x32_o0_0_0_S512x1x32 : S512x8x32.Slices ![0, 0, 0] S512x1x32
  broadcasts_S512x1x32_S512x8x32 : S512x1x32.Broadcasts S512x8x32
  reduces_S512x8x32_S512x8 : S512x8x32.Reduces [2] S512x8
  shapeCasts_S512x8_S512x8x1 : S512x8.ShapeCasts S512x8x1
  slices_S512x8x32_o0_1_0_S512x1x32 : S512x8x32.Slices ![0, 1, 0] S512x1x32
  slices_S512x8x32_o0_2_0_S512x1x32 : S512x8x32.Slices ![0, 2, 0] S512x1x32
  slices_S512x8x32_o0_3_0_S512x1x32 : S512x8x32.Slices ![0, 3, 0] S512x1x32
  slices_S512x8x32_o0_4_0_S512x1x32 : S512x8x32.Slices ![0, 4, 0] S512x1x32
  slices_S512x8x32_o0_5_0_S512x1x32 : S512x8x32.Slices ![0, 5, 0] S512x1x32
  slices_S512x8x32_o0_6_0_S512x1x32 : S512x8x32.Slices ![0, 6, 0] S512x1x32
  slices_S512x8x32_o0_7_0_S512x1x32 : S512x8x32.Slices ![0, 7, 0] S512x1x32
  concatenates_S512x8x1_S512x8x1_S512x8x1_S512x8x1_S512x8x1_S512x8x1_S512x8x1_S512x8x1_S512x8x8_d2 : Shape.Concatenates [S512x8x1, S512x8x1, S512x8x1, S512x8x1, S512x8x1, S512x8x1, S512x8x1, S512x8x1] S512x8x8 2
  reduces_S512x8x8_S512x8 : S512x8x8.Reduces [2] S512x8
  broadcasts_S512x8x1_S512x8x8 : S512x8x1.Broadcasts S512x8x8
  slices_S512x8x8_o0_0_0_S512x8x1 : S512x8x8.Slices ![0, 0, 0] S512x8x1
  broadcasts_S512x8x1_S512x8x32 : S512x8x1.Broadcasts S512x8x32
  slices_S512x8x8_o0_0_1_S512x8x1 : S512x8x8.Slices ![0, 0, 1] S512x8x1
  slices_S512x8x8_o0_0_2_S512x8x1 : S512x8x8.Slices ![0, 0, 2] S512x8x1
  slices_S512x8x8_o0_0_3_S512x8x1 : S512x8x8.Slices ![0, 0, 3] S512x8x1
  slices_S512x8x8_o0_0_4_S512x8x1 : S512x8x8.Slices ![0, 0, 4] S512x8x1
  slices_S512x8x8_o0_0_5_S512x8x1 : S512x8x8.Slices ![0, 0, 5] S512x8x1
  slices_S512x8x8_o0_0_6_S512x8x1 : S512x8x8.Slices ![0, 0, 6] S512x8x1
  slices_S512x8x8_o0_0_7_S512x8x1 : S512x8x8.Slices ![0, 0, 7] S512x8x1
  shapeCasts_S512x8x32_S512x256 : S512x8x32.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  shapeCasts_S65536x256_S16x64x64x256 : S65536x256.ShapeCasts S16x64x64x256
  dot_S512x256_S256x768_S512x768_1_0_0_1_n_n_wf : DotDims.WF S512x256 S256x768 S512x768 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S65536x256.size a
  hwx0_5 : ∀ i : grid0.Coords, EltTy.bits .f32 = 32 ∨ (Rect.block (s := S65536x256) S512x256.size (cc0_transform_5 i) (hinb0_5 i)).WholeWords (EltTy.packing .f32)

variable [Facts₀]

def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x64x64x256 : Shape := ⟨4, ![16, 64, 64, 256]⟩
abbrev S256x768 : Shape := ⟨2, ![256, 768]⟩
abbrev S768 : Shape := ⟨1, ![768]⟩
abbrev S256x256 : Shape := ⟨2, ![256, 256]⟩
abbrev S256 : Shape := ⟨1, ![256]⟩
abbrev S16x64x64x768 : Shape := ⟨4, ![16, 64, 64, 768]⟩
abbrev S1x1x1x768 : Shape := ⟨4, ![1, 1, 1, 768]⟩
abbrev S16x4096x3x8x32 : Shape := ⟨5, ![16, 4096, 3, 8, 32]⟩
abbrev S16x4096x1x8x32 : Shape := ⟨5, ![16, 4096, 1, 8, 32]⟩
abbrev S16x4096x8x32 : Shape := ⟨4, ![16, 4096, 8, 32]⟩
abbrev S16x4096x8x8 : Shape := ⟨4, ![16, 4096, 8, 8]⟩
abbrev S_ : Shape := ⟨0, ![]⟩
abbrev S16x4096x8 : Shape := ⟨3, ![16, 4096, 8]⟩
abbrev S16x4096x8x1 : Shape := ⟨4, ![16, 4096, 8, 1]⟩
abbrev S1x1x1x256 : Shape := ⟨4, ![1, 1, 1, 256]⟩

abbrev nBuf : Space → Nat
  | .hbm => 41
  | .vmem => 0
  | .smem => 0
  | _ => 0

abbrev bufTy : (tb : Table) → Fin (tcTables nBuf tb) → BufTy
  | .hbm, ⟨0, _⟩ => ⟨S16x64x64x256, .f32⟩
  | .hbm, ⟨1, _⟩ => ⟨S256x768, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S16x64x64x768, .f32⟩
  | .hbm, ⟨6, _⟩ => ⟨S1x1x1x768, .f32⟩
  | .hbm, ⟨7, _⟩ => ⟨S16x64x64x768, .f32⟩
  | .hbm, ⟨8, _⟩ => ⟨S16x64x64x768, .f32⟩
  | .hbm, ⟨9, _⟩ => ⟨S16x4096x3x8x32, .f32⟩
  | .hbm, ⟨10, _⟩ => ⟨S16x4096x1x8x32, .f32⟩
  | .hbm, ⟨11, _⟩ => ⟨S16x4096x8x32, .f32⟩
  | .hbm, ⟨12, _⟩ => ⟨S16x4096x1x8x32, .f32⟩
  | .hbm, ⟨13, _⟩ => ⟨S16x4096x8x32, .f32⟩
  | .hbm, ⟨14, _⟩ => ⟨S16x4096x1x8x32, .f32⟩
  | .hbm, ⟨15, _⟩ => ⟨S16x4096x8x32, .f32⟩
  | .hbm, ⟨16, _⟩ => ⟨S16x4096x8x8, .f32⟩
  | .hbm, ⟨17, _⟩ => ⟨S_, .f32⟩
  | .hbm, ⟨18, _⟩ => ⟨S16x4096x8x8, .f32⟩
  | .hbm, ⟨19, _⟩ => ⟨S16x4096x8x8, .f32⟩
  | .hbm, ⟨20, _⟩ => ⟨S_, .f32⟩
  | .hbm, ⟨21, _⟩ => ⟨S16x4096x8, .f32⟩
  | .hbm, ⟨22, _⟩ => ⟨S_, .f32⟩
  | .hbm, ⟨23, _⟩ => ⟨S16x4096x8, .f32⟩
  | .hbm, ⟨24, _⟩ => ⟨S16x4096x8, .f32⟩
  | .hbm, ⟨25, _⟩ => ⟨S16x4096x8x1, .f32⟩
  | .hbm, ⟨26, _⟩ => ⟨S16x4096x8x8, .f32⟩
  | .hbm, ⟨27, _⟩ => ⟨S16x4096x8x8, .f32⟩
  | .hbm, ⟨28, _⟩ => ⟨S16x4096x8x8, .f32⟩
  | .hbm, ⟨29, _⟩ => ⟨S_, .f32⟩
  | .hbm, ⟨30, _⟩ => ⟨S16x4096x8, .f32⟩
  | .hbm, ⟨31, _⟩ => ⟨S16x4096x8x1, .f32⟩
  | .hbm, ⟨32, _⟩ => ⟨S16x4096x8x8, .f32⟩
  | .hbm, ⟨33, _⟩ => ⟨S16x4096x8x8, .f32⟩
  | .hbm, ⟨34, _⟩ => ⟨S16x4096x8x32, .f32⟩
  | .hbm, ⟨35, _⟩ => ⟨S16x64x64x256, .f32⟩
  | .hbm, ⟨36, _⟩ => ⟨S16x64x64x256, .f32⟩
  | .hbm, ⟨37, _⟩ => ⟨S1x1x1x256, .f32⟩
  | .hbm, ⟨38, _⟩ => ⟨S16x64x64x256, .f32⟩
  | .hbm, ⟨39, _⟩ => ⟨S16x64x64x256, .f32⟩
  | .hbm, ⟨40, _⟩ => ⟨S16x64x64x256, .f32⟩
  | _, _ => ⟨S16x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  bcast_S768_S1x1x1x768_3 : S768.BroadcastsInDim S1x1x1x768 (![3] : Fin 1 → Fin S1x1x1x768.rank)
  bcast_S1x1x1x768_S16x64x64x768_0_1_2_3 : S1x1x1x768.BroadcastsInDim S16x64x64x768 (![0, 1, 2, 3] : Fin 4 → Fin S16x64x64x768.rank)
  shapeCasts_S16x64x64x768_S16x4096x3x8x32 : S16x64x64x768.ShapeCasts S16x4096x3x8x32
  slices_S16x4096x3x8x32_S16x4096x1x8x32_0_0_0_0_0 : S16x4096x3x8x32.Slices ![0, 0, 0, 0, 0] S16x4096x1x8x32
  shapeCasts_S16x4096x1x8x32_S16x4096x8x32 : S16x4096x1x8x32.ShapeCasts S16x4096x8x32
  slices_S16x4096x3x8x32_S16x4096x1x8x32_0_0_1_0_0 : S16x4096x3x8x32.Slices ![0, 0, 1, 0, 0] S16x4096x1x8x32
  slices_S16x4096x3x8x32_S16x4096x1x8x32_0_0_2_0_0 : S16x4096x3x8x32.Slices ![0, 0, 2, 0, 0] S16x4096x1x8x32
  bcast_S_S16x4096x8x8 : S_.BroadcastsInDim S16x4096x8x8 (![] : Fin 0 → Fin S16x4096x8x8.rank)
  reducesTo_S16x4096x8x8_S16x4096x8_d3 : S16x4096x8x8.ReducesTo [3] S16x4096x8
  h_S_ : 0 < S_.numel
  bcast_S_S16x4096x8 : S_.BroadcastsInDim S16x4096x8 (![] : Fin 0 → Fin S16x4096x8.rank)
  bcast_S16x4096x8_S16x4096x8x1_0_1_2 : S16x4096x8.BroadcastsInDim S16x4096x8x1 (![0, 1, 2] : Fin 3 → Fin S16x4096x8x1.rank)
  bcast_S16x4096x8x1_S16x4096x8x8_0_1_2_3 : S16x4096x8x1.BroadcastsInDim S16x4096x8x8 (![0, 1, 2, 3] : Fin 4 → Fin S16x4096x8x8.rank)
  shapeCasts_S16x4096x8x32_S16x64x64x256 : S16x4096x8x32.ShapeCasts S16x64x64x256
  bcast_S256_S1x1x1x256_3 : S256.BroadcastsInDim S1x1x1x256 (![3] : Fin 1 → Fin S1x1x1x256.rank)
  bcast_S1x1x1x256_S16x64x64x256_0_1_2_3 : S1x1x1x256.BroadcastsInDim S16x64x64x256 (![0, 1, 2, 3] : Fin 4 → Fin S16x64x64x256.rank)
  dot_S16x64x64x256_S256x768_S16x64x64x768_3_0_012_1_n_n_wf : DotDims.WF S16x64x64x256 S256x768 S16x64x64x768 [3] [0] [0, 1, 2] [1] [] []
  dot_S16x4096x8x32_S16x4096x8x32_S16x4096x8x8_3_3_2_2_01_01_wf : DotDims.WF S16x4096x8x32 S16x4096x8x32 S16x4096x8x8 [3] [3] [2] [2] [0, 1] [0, 1]
  dot_S16x4096x8x8_S16x4096x8x32_S16x4096x8x32_3_2_2_3_01_01_wf : DotDims.WF S16x4096x8x8 S16x4096x8x32 S16x4096x8x32 [3] [2] [2] [3] [0, 1] [0, 1]
  dot_S16x64x64x256_S256x256_S16x64x64x256_3_0_012_1_n_n_wf : DotDims.WF S16x64x64x256 S256x256 S16x64x64x256 [3] [0] [0, 1, 2] [1] [] []

variable [Facts₀]

def dot_S16x64x64x256_S256x768_S16x64x64x768_3_0_012_1_n_n : DotDims S16x64x64x256 S256x768 S16x64x64x768 where
  lhsContracting := [3]
  rhsContracting := [0]
  lhsNonContracting := [0, 1, 2]
  rhsNonContracting := [1]
  lhsBatch := []
  rhsBatch := []
  wf := dot_S16x64x64x256_S256x768_S16x64x64x768_3_0_012_1_n_n_wf
def dot_S16x4096x8x32_S16x4096x8x32_S16x4096x8x8_3_3_2_2_01_01 : DotDims S16x4096x8x32 S16x4096x8x32 S16x4096x8x8 where
  lhsContracting := [3]
  rhsContracting := [3]
  lhsNonContracting := [2]
  rhsNonContracting := [2]
  lhsBatch := [0, 1]
  rhsBatch := [0, 1]
  wf := dot_S16x4096x8x32_S16x4096x8x32_S16x4096x8x8_3_3_2_2_01_01_wf
def dot_S16x4096x8x8_S16x4096x8x32_S16x4096x8x32_3_2_2_3_01_01 : DotDims S16x4096x8x8 S16x4096x8x32 S16x4096x8x32 where
  lhsContracting := [3]
  rhsContracting := [2]
  lhsNonContracting := [2]
  rhsNonContracting := [3]
  lhsBatch := [0, 1]
  rhsBatch := [0, 1]
  wf := dot_S16x4096x8x8_S16x4096x8x32_S16x4096x8x32_3_2_2_3_01_01_wf
def dot_S16x64x64x256_S256x256_S16x64x64x256_3_0_012_1_n_n : DotDims S16x64x64x256 S256x256 S16x64x64x256 where
  lhsContracting := [3]
  rhsContracting := [0]
  lhsNonContracting := [0, 1, 2]
  rhsNonContracting := [1]
  lhsBatch := []
  rhsBatch := []
  wf := dot_S16x64x64x256_S256x256_S16x64x64x256_3_0_012_1_n_n_wf

class Facts : Prop extends Facts₀ where

variable [Facts]
-- ==== Proof.HeadAttention.lean ====
/-
  Self-attention over the HEAD axis of one pixel, as a function of that pixel's 256 input channels.

  A pixel's channel vector X is sent by a fused affine map to 768 numbers, read as three 8 × 32 tables
  q, k, v (part t, head n, lane d at column 256·t + 32·n + d). The 8 × 8 score of heads (n, m) is the
  inner product of q's row n with k's row m over the 32 lanes, times one fixed scale; each row of scores
  is turned into weights exp(score − row maximum) / (row sum of those), the maximum taken from −∞; the
  weights mix v's rows; the 8 × 32 result, read again as 256 channels, goes through a second affine map
  and is added to X. Nothing here ever looks at another pixel: the whole computation is this function
  applied to each pixel's row, which is what makes a tiling of the pixels invisible in the result.
  All arithmetic is on the extended reals; only sums, products, one difference, one quotient, exp and max
  occur, in the same places in both programs, so no law beyond reordering finite sums is needed.
-/
import Idealize.ShloMosaic.PureOps.Ideal
import Idealize.ShloMosaic.Lib.ValueIdx

noncomputable section

namespace Cert.HeadAttention

open Idealize.ShloMosaic Idealize.ShloMosaic.ValueIdx

/-- Column of the fused map's output holding part `t` (0 = q, 1 = k, 2 = v), head `n`, lane `d`. -/
def col (t : Fin 3) (n : Fin 8) (d : Fin 32) : Fin 768 := ⟨t.val * 256 + n.val * 32 + d.val, by omega⟩

/-- Head `k / 32` and lane `k % 32` of channel `k`. -/
def headOf (k : Fin 256) : Fin 8 := ⟨k.val / 32, by omega⟩
def laneOf (k : Fin 256) : Fin 32 := ⟨k.val % 32, Nat.mod_lt _ (by decide)⟩

/-- The scale on the scores and the value the row maximum starts from, as the words both programs carry. -/
def scale : EReal := Ideal.ofBits .f32 0x3E3504F3#32
def floor : EReal := Ideal.ofBits .f32 0xFF800000#32

variable (X : Fin 256 → EReal) (W : (⟨2, ![256, 768]⟩ : Shape).Idx → EReal) (bq : (⟨1, ![768]⟩ : Shape).Idx → EReal)
  (Wp : (⟨2, ![256, 256]⟩ : Shape).Idx → EReal) (bp : (⟨1, ![256]⟩ : Shape).Idx → EReal)

/-- The fused affine map at column `j`. -/
def proj (j : Fin 768) : EReal := (∑ c : Fin 256, X c * W (ix2 c j)) + bq (ix1 j)

/-- Scaled inner product of q's row `n` with k's row `m`. -/
def score (n m : Fin 8) : EReal := (∑ d : Fin 32, proj X W bq (col 0 n d) * proj X W bq (col 1 m d)) * scale

/-- The largest score of row `n`, folded from −∞. -/
def top (n : Fin 8) : EReal := (Finset.univ : Finset (Fin 8)).fold max floor (fun m => score X W bq n m)

def weight (n m : Fin 8) : EReal := Ideal.exp (score X W bq n m - top X W bq n)

def mass (n : Fin 8) : EReal := ∑ m : Fin 8, weight X W bq n m

def attn (n m : Fin 8) : EReal := Ideal.div (weight X W bq n m) (mass X W bq n)

/-- v's rows mixed by row `n` of the weights, at lane `d`. -/
def mixed (n : Fin 8) (d : Fin 32) : EReal := ∑ m : Fin 8, attn X W bq n m * proj X W bq (col 2 m d)

/-- The pixel's output channel `c`. -/
def outRow (c : Fin 256) : EReal :=
  X c + ((∑ k : Fin 256, mixed X W bq (headOf k) (laneOf k) * Wp (ix2 k c)) + bp (ix1 c))

/-- The whole result: every pixel (b, h, w) of the [16, 64, 64, 256] array through `outRow`. -/
def result (x : (⟨4, ![16, 64, 64, 256]⟩ : Shape).Idx → EReal) : (⟨4, ![16, 64, 64, 256]⟩ : Shape).Idx → EReal :=
  fun i => outRow (fun c => x (ix4 (i 0) (i 1) (i 2) c)) W bq Wp bp (i 3)

/-- The same over the pixels laid out as the 65536 rows of a matrix. -/
def resultRows (x : (⟨2, ![65536, 256]⟩ : Shape).Idx → EReal) : (⟨2, ![65536, 256]⟩ : Shape).Idx → EReal :=
  fun j => outRow (fun c => x (ix2 (j 0) c)) W bq Wp bp (j 1)

end Cert.HeadAttention

end
-- ==== Proof.HeadLayout.lean ====
/-
  How the kernel's re-layings of one block of rows read at an index.

  A block of R pixels is a matrix with one pixel per row. The fused map's 768 columns are cut into three
  groups of 256 and each group is read as an 8 × 32 table per pixel (head n, lane d at column 32·n + d);
  one head's lanes are repeated over all heads, a sum or maximum along the last axis is kept as a trailing
  unit axis and repeated along it, eight unit-width columns are laid side by side, one column of an
  8 × 8 table is repeated over the lanes, a bias vector is repeated over the rows, and the 8 × 32 table
  is read back as 256 channels. Each lemma says which entry of the operand an entry of the result is;
  none of them mixes different pixels (the row coordinate is carried through unchanged).
-/
import Idealize.ShloMosaic.Lib.ValueLayout
import Idealize.ShloMosaic.Lib.Pipeline.Value
import Idealize.ShloMosaic.PureOps.Ideal.Laws

noncomputable section

namespace Cert.HeadAttention.Layout

open Idealize.ShloMosaic Idealize.ShloMosaic.ValueIdx

variable {α : Type}

/-- Columns `o … o + 255` of an `[R, 768]` matrix read as `[R, 8, 32]`: entry (r, n, d) is column `o + 32·n + d` of row r. -/
theorem heads_of_cols {R : ℕ} (o : ℕ) (Y : (⟨2, ![R, 768]⟩ : Shape).Idx → α)
    (hs : (⟨2, ![R, 768]⟩ : Shape).Slices ![0, o] ⟨2, ![R, 256]⟩)
    (hc : (⟨2, ![R, 256]⟩ : Shape).ShapeCasts ⟨3, ![R, 8, 32]⟩)
    (r : Fin R) (n : Fin 8) (d : Fin 32) (j : Fin 768) (hj : j.val = o + (n.val * 32 + d.val)) :
    shapeCast ⟨3, ![R, 8, 32]⟩ (extractStridedSlice ⟨2, ![R, 256]⟩ ![0, o] Y hs) hc (ix3 r n d) = Y (ix2 r j) := by
  have hk : n.val * 32 + d.val < 256 := by have := n.isLt; have := d.isLt; omega
  rw [shapeCast_apply _ hc (ix3 r n d) (ix2 r (⟨n.val * 32 + d.val, hk⟩ : Fin 256)) (by
    rw [Shape.rowMajor_val_two, Shape.rowMajor_val_three]
    show r.val * 256 + (n.val * 32 + d.val) = (r.val * 8 + n.val) * 32 + d.val
    omega)]
  exact slice2_axis1_apply o Y hs r ⟨_, hk⟩ j hj

/-- An `[R, 8, 32]` table read back as `[R, 256]`: channel k is head `k / 32`, lane `k % 32`. -/
theorem chans_of_heads {R : ℕ} (O : (⟨3, ![R, 8, 32]⟩ : Shape).Idx → α)
    (hc : (⟨3, ![R, 8, 32]⟩ : Shape).ShapeCasts ⟨2, ![R, 256]⟩)
    (r : Fin R) (k : Fin 256) (n : Fin 8) (d : Fin 32) (hn : n.val = k.val / 32) (hd : d.val = k.val % 32) :
    shapeCast ⟨2, ![R, 256]⟩ O hc (ix2 r k) = O (ix3 r n d) :=
  shapeCast_apply O hc (ix2 r k) (ix3 r n d) (by
    rw [Shape.rowMajor_val_two, Shape.rowMajor_val_three]
    show (r.val * 8 + n.val) * 32 + d.val = r.val * 256 + k.val
    omega)

/-- Head m's lanes repeated over all eight heads: entry (r, n, d) is the table's entry (r, m, d). -/
theorem head_row_bcast {R : ℕ} (m : ℕ) (K : (⟨3, ![R, 8, 32]⟩ : Shape).Idx → α)
    (hs : (⟨3, ![R, 8, 32]⟩ : Shape).Slices ![0, m, 0] ⟨3, ![R, 1, 32]⟩)
    (hb : (⟨3, ![R, 1, 32]⟩ : Shape).Broadcasts ⟨3, ![R, 8, 32]⟩)
    (r : Fin R) (n : Fin 8) (d : Fin 32) (mm : Fin 8) (hm : mm.val = m) :
    broadcastTo ⟨3, ![R, 8, 32]⟩ (extractStridedSlice ⟨3, ![R, 1, 32]⟩ ![0, m, 0] K hs) hb (ix3 r n d) = K (ix3 r mm d) := by
  rw [broadcastTo_apply _ hb (ix3 r n d) (ix3 r (0 : Fin 1) d) (fun ax => by
    match ax with
    | ⟨0, _⟩ =>
      show r.val = if R = 1 then 0 else r.val
      split
      · have := r.isLt; omega
      · rfl
    | ⟨1, _⟩ => rfl
    | ⟨2, _⟩ => rfl)]
  exact slice3_axis1_apply m K hs r (0 : Fin 1) d mm (by rw [hm]; rfl)

/-- Column m of an `[R, 8, 8]` table repeated over the 32 lanes: entry (r, n, d) is the table's entry (r, n, m). -/
theorem weight_col_bcast {R : ℕ} (m : ℕ) (A : (⟨3, ![R, 8, 8]⟩ : Shape).Idx → α)
    (hs : (⟨3, ![R, 8, 8]⟩ : Shape).Slices ![0, 0, m] ⟨3, ![R, 8, 1]⟩)
    (hb : (⟨3, ![R, 8, 1]⟩ : Shape).Broadcasts ⟨3, ![R, 8, 32]⟩)
    (r : Fin R) (n : Fin 8) (d : Fin 32) (mm : Fin 8) (hm : mm.val = m) :
    broadcastTo ⟨3, ![R, 8, 32]⟩ (extractStridedSlice ⟨3, ![R, 8, 1]⟩ ![0, 0, m] A hs) hb (ix3 r n d) = A (ix3 r n mm) := by
  rw [broadcastTo_apply _ hb (ix3 r n d) (ix3 r n (0 : Fin 1)) (fun ax => by
    match ax with
    | ⟨0, _⟩ =>
      show r.val = if R = 1 then 0 else r.val
      split
      · have := r.isLt; omega
      · rfl
    | ⟨1, _⟩ => rfl
    | ⟨2, _⟩ => rfl)]
  exact extractStridedSlice_apply _ A hs (ix3 r n (0 : Fin 1)) (ix3 r n mm) (fun ax => by
    match ax with
    | ⟨0, _⟩ => exact (Nat.zero_add _).symm
    | ⟨1, _⟩ => exact (Nat.zero_add _).symm
    | ⟨2, _⟩ => show mm.val = m + 0; omega)

/-- A value per (pixel, head) kept with a trailing unit axis and repeated along `b` entries: (r, n, e) reads (r, n). -/
theorem keep_last_bcast {R b : ℕ} (v : (⟨2, ![R, 8]⟩ : Shape).Idx → α)
    (hc : (⟨2, ![R, 8]⟩ : Shape).ShapeCasts ⟨3, ![R, 8, 1]⟩)
    (hb : (⟨3, ![R, 8, 1]⟩ : Shape).Broadcasts ⟨3, ![R, 8, b]⟩)
    (r : Fin R) (n : Fin 8) (e : Fin b) :
    broadcastTo ⟨3, ![R, 8, b]⟩ (shapeCast ⟨3, ![R, 8, 1]⟩ v hc) hb (ix3 r n e) = v (ix2 r n) := by
  rw [broadcastTo_apply _ hb (ix3 r n e) (ix3 r n (0 : Fin 1)) (fun ax => by
    match ax with
    | ⟨0, _⟩ =>
      show r.val = if R = 1 then 0 else r.val
      split
      · have := r.isLt; omega
      · rfl
    | ⟨1, _⟩ => rfl
    | ⟨2, _⟩ => rfl)]
  exact shapeCast_apply v hc (ix3 r n (0 : Fin 1)) (ix2 r n) (by
    rw [Shape.rowMajor_val_two, Shape.rowMajor_val_three]
    show r.val * 8 + n.val = (r.val * 8 + n.val) * 1 + 0
    omega)

/-- The same without the repetition: the kept unit axis read at its one coordinate. -/
theorem keep_last {R : ℕ} (v : (⟨2, ![R, 8]⟩ : Shape).Idx → α)
    (hc : (⟨2, ![R, 8]⟩ : Shape).ShapeCasts ⟨3, ![R, 8, 1]⟩) (r : Fin R) (n : Fin 8) (u : Fin 1) :
    shapeCast ⟨3, ![R, 8, 1]⟩ v hc (ix3 r n u) = v (ix2 r n) :=
  shapeCast_apply v hc (ix3 r n u) (ix2 r n) (by
    rw [Shape.rowMajor_val_two, Shape.rowMajor_val_three]
    show r.val * 8 + n.val = (r.val * 8 + n.val) * 1 + u.val
    have := u.isLt; omega)

/-- A bias vector laid as one row and repeated over the R rows: entry (r, j) is the vector's entry j. -/
theorem bias_rows {R b : ℕ} (v : (⟨1, ![b]⟩ : Shape).Idx → α) (hc : (⟨1, ![b]⟩ : Shape).ShapeCasts ⟨2, ![1, b]⟩)
    (hb : (⟨2, ![1, b]⟩ : Shape).Broadcasts ⟨2, ![R, b]⟩) (r : Fin R) (j : Fin b) :
    broadcastTo ⟨2, ![R, b]⟩ (shapeCast ⟨2, ![1, b]⟩ v hc) hb (ix2 r j) = v (ix1 j) := by
  rw [broadcastTo_1b_ab_apply _ hb r j]
  exact shapeCast_a_1a_apply v hc (0 : Fin 1) j

/-- The sum along the last axis of an `[R, 8, b]` array at (r, n): the sum over that axis's coordinate. -/
theorem last_sum_apply {R b : ℕ} {φ : FTy} (src : FVec Ideal ⟨3, ![R, 8, b]⟩ φ) (acc : BitVec φ.bits)
    (h : (⟨3, ![R, 8, b]⟩ : Shape).Reduces [2] ⟨2, ![R, 8]⟩) (hφ : FKind.Formats φ) (hacc : acc = FKind.add.neutral φ hφ)
    (r : Fin R) (n : Fin 8) :
    multiReduction .add [2] ⟨2, ![R, 8]⟩ src acc h hφ hacc (ix2 r n) = ∑ e : Fin b, src (ix3 r n e) := by
  refine (Ideal.multiReduction_add_single src acc h hφ hacc (ix2 r n)).trans ?_
  refine Finset.sum_congr rfl fun e _ => congrArg src (funext fun ax => ?_)
  match ax with
  | ⟨0, _⟩ => rfl
  | ⟨1, _⟩ => rfl
  | ⟨2, _⟩ => rfl

/-- The maximum along the last axis of an `[R, 8, b]` array at (r, n): the fold of `max` from the starting value. -/
theorem last_max_apply {R b : ℕ} {φ : FTy} (src : FVec Ideal ⟨3, ![R, 8, b]⟩ φ) (acc : BitVec φ.bits)
    (h : (⟨3, ![R, 8, b]⟩ : Shape).Reduces [2] ⟨2, ![R, 8]⟩) (hφ : FKind.Formats φ) (hacc : acc = FKind.maximumf.neutral φ hφ)
    (r : Fin R) (n : Fin 8) :
    multiReduction .maximumf [2] ⟨2, ![R, 8]⟩ src acc h hφ hacc (ix2 r n)
      = (Finset.univ : Finset (Fin b)).fold max (FloatOps.ofBits φ acc) (fun e => src (ix3 r n e)) := by
  refine (Ideal.multiReduction_maximumf_single src acc h hφ hacc (ix2 r n)).trans ?_
  refine congrArg (fun g => (Finset.univ : Finset (Fin b)).fold max (FloatOps.ofBits φ acc) g) (funext fun e => ?_)
  refine congrArg src (funext fun ax => ?_)
  match ax with
  | ⟨0, _⟩ => rfl
  | ⟨1, _⟩ => rfl
  | ⟨2, _⟩ => rfl

/-- A trailing unit axis repeated over the 32 lanes: entry (r, n, d) is the operand's entry (r, n, 0). -/
theorem unit_last_bcast {R : ℕ} (a : (⟨3, ![R, 8, 1]⟩ : Shape).Idx → α)
    (hb : (⟨3, ![R, 8, 1]⟩ : Shape).Broadcasts ⟨3, ![R, 8, 32]⟩) (r : Fin R) (n : Fin 8) (d : Fin 32) :
    broadcastTo ⟨3, ![R, 8, 32]⟩ a hb (ix3 r n d) = a (ix3 r n (0 : Fin 1)) :=
  broadcastTo_apply _ hb (ix3 r n d) (ix3 r n (0 : Fin 1)) (fun ax => by
    match ax with
    | ⟨0, _⟩ =>
      show r.val = if R = 1 then 0 else r.val
      split
      · have := r.isLt; omega
      · rfl
    | ⟨1, _⟩ => rfl
    | ⟨2, _⟩ => rfl)

/-- A middle unit axis repeated over the eight heads: entry (r, n, d) is the operand's entry (r, 0, d). -/
theorem unit_mid_bcast {R : ℕ} (v : (⟨3, ![R, 1, 32]⟩ : Shape).Idx → α)
    (hb : (⟨3, ![R, 1, 32]⟩ : Shape).Broadcasts ⟨3, ![R, 8, 32]⟩) (r : Fin R) (n : Fin 8) (d : Fin 32) :
    broadcastTo ⟨3, ![R, 8, 32]⟩ v hb (ix3 r n d) = v (ix3 r (0 : Fin 1) d) :=
  broadcastTo_apply _ hb (ix3 r n d) (ix3 r (0 : Fin 1) d) (fun ax => by
    match ax with
    | ⟨0, _⟩ =>
      show r.val = if R = 1 then 0 else r.val
      split
      · have := r.isLt; omega
      · rfl
    | ⟨1, _⟩ => rfl
    | ⟨2, _⟩ => rfl)

/-- Head m's lanes cut out with a unit head axis: entry (r, 0, d) is the table's entry (r, m, d). -/
theorem head_row {R : ℕ} (m : ℕ) (K : (⟨3, ![R, 8, 32]⟩ : Shape).Idx → α)
    (hs : (⟨3, ![R, 8, 32]⟩ : Shape).Slices ![0, m, 0] ⟨3, ![R, 1, 32]⟩)
    (r : Fin R) (u : Fin 1) (d : Fin 32) (mm : Fin 8) (hm : mm.val = m) :
    extractStridedSlice ⟨3, ![R, 1, 32]⟩ ![0, m, 0] K hs (ix3 r u d) = K (ix3 r mm d) :=
  slice3_axis1_apply m K hs r u d mm (by have := u.isLt; omega)

/-- Column m cut out with a unit last axis: entry (r, n, 0) is the table's entry (r, n, m). -/
theorem weight_col {R : ℕ} (m : ℕ) (A : (⟨3, ![R, 8, 8]⟩ : Shape).Idx → α)
    (hs : (⟨3, ![R, 8, 8]⟩ : Shape).Slices ![0, 0, m] ⟨3, ![R, 8, 1]⟩)
    (r : Fin R) (n : Fin 8) (u : Fin 1) (mm : Fin 8) (hm : mm.val = m) :
    extractStridedSlice ⟨3, ![R, 8, 1]⟩ ![0, 0, m] A hs (ix3 r n u) = A (ix3 r n mm) :=
  extractStridedSlice_apply _ A hs (ix3 r n u) (ix3 r n mm) (fun ax => by
    match ax with
    | ⟨0, _⟩ => exact (Nat.zero_add _).symm
    | ⟨1, _⟩ => exact (Nat.zero_add _).symm
    | ⟨2, _⟩ => show mm.val = m + u.val; have := u.isLt; omega)

/-- Eight unit-width columns laid side by side along the last axis: entry (r, n, m) is column m's entry (r, n, 0). -/
theorem eight_cols {R : ℕ} (c : Fin 8 → ((⟨3, ![R, 8, 1]⟩ : Shape).Idx → α))
    (h : Shape.Concatenates ((List.ofFn fun k : Fin 8 => (⟨⟨3, ![R, 8, 1]⟩, c k⟩ : (s : Shape) × (s.Idx → α))).map (·.1)) ⟨3, ![R, 8, 8]⟩ 2)
    (r : Fin R) (n m : Fin 8) :
    concatenate ⟨3, ![R, 8, 8]⟩ 2 (List.ofFn fun k : Fin 8 => (⟨⟨3, ![R, 8, 1]⟩, c k⟩ : (s : Shape) × (s.Idx → α))) h (ix3 r n m)
      = c m (ix3 r n (0 : Fin 1)) :=
  concatenate_ofFn_unit_apply (t := ⟨3, ![R, 8, 8]⟩) (s₁ := ⟨3, ![R, 8, 1]⟩) 2 c h rfl rfl (ix3 r n m) m rfl (ix3 r n (0 : Fin 1))
    (fun b hb => by
      match b with
      | ⟨0, _⟩ => rfl
      | ⟨1, _⟩ => rfl
      | ⟨2, _⟩ => exact absurd rfl hb)

end Cert.HeadAttention.Layout

end
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.KernelRow.lean ====
/-
  One row of the kernel's output block is the pixel function of the same row of its input block.

  The body works on a block of 512 pixels at once, one pixel per row. Read at row r, every stage depends only on
  row r of the block and on the (whole) weight arrays: the fused product and bias give the pixel's 768 numbers;
  three column groups re-laid as 8 × 32 give q, k, v; the eight columns of raw scores are lane sums of q against
  one head of k each, laid side by side and scaled; the row maximum (from −∞), the exponentials, their row sum and
  the quotient give the weights; the mixing is accumulated from zero one head of v at a time, which on the
  extended reals is the sum over the eight heads (addition there is commutative and associative); the table read
  back as 256 channels goes through the second product and bias and is added to the input row. Each lemma below
  reads one such stage at an index over abstract operands; the last ones instantiate them at the block.
-/
import proofs.«106815_j84817014162138_2_alg».proof.Proof.Gen.KernelIdeal.Skeleton
import proofs.«106815_j84817014162138_2_alg».proof.Proof.Gen.KernelIdeal.Frame
import proofs.«106815_j84817014162138_2_alg».proof.Proof.HeadAttention
import proofs.«106815_j84817014162138_2_alg».proof.Proof.HeadLayout
import proofs.«106815_j84817014162138_2_alg».proof.Proof.LibDenseRows

noncomputable section

namespace Cert.HeadAttention.KernelRow

open Idealize.ShloMosaic Idealize.ShloMosaic.ValueIdx Cert.KernelIdeal Cert.KernelIdeal.Gen Cert.HeadAttention Cert.HeadAttention.Layout

/-- Softmax of a row of eight scores, the maximum folded from −∞. -/
def soft (S : Fin 8 → EReal) (m : Fin 8) : EReal :=
  Ideal.div (Ideal.exp (S m - (Finset.univ : Finset (Fin 8)).fold max floor S))
    (∑ m' : Fin 8, Ideal.exp (S m' - (Finset.univ : Finset (Fin 8)).fold max floor S))

theorem attn_eq_soft (X : Fin 256 → EReal) (W : (⟨2, ![256, 768]⟩ : Shape).Idx → EReal) (bq : (⟨1, ![768]⟩ : Shape).Idx → EReal)
    (n m : Fin 8) : attn X W bq n m = soft (fun m' => score X W bq n m') m := rfl

section Fused
variable (x0 : Vec Ideal S512x256 .f32) (x1 : Vec Ideal S256x768 .bf16) (x2 : Vec Ideal S768 .f32) (r : Fin 512)

/-- The fused map of the block's row r at column j. -/
theorem fused_apply (j : Fin 768) :
    k0_pay3 (F := Ideal) x0 x1 x2 (ix2 r j) = proj (fun c => x0 (ix2 r c)) x1 x2 j := by
  unfold k0_pay3 k0_pay2
  rw [addf_apply, bias_rows]
  simp only [matmul]
  rw [Cert.DenseRows.matmul_rows_apply _ rfl rfl (fun _ _ => rfl) (fun _ _ => rfl) (fun _ _ => rfl) (fun _ _ => rfl)]
  simp only [truncf_apply, shapeCast_self]
  rfl

theorem q_apply (n : Fin 8) (d : Fin 32) :
    k0_pay4 (F := Ideal) x0 x1 x2 (ix3 r n d) = proj (fun c => x0 (ix2 r c)) x1 x2 (col 0 n d) := by
  unfold k0_pay4
  rw [heads_of_cols 0 _ _ _ r n d (col 0 n d) (by show 0 * 256 + n.val * 32 + d.val = 0 + (n.val * 32 + d.val); omega)]
  exact fused_apply x0 x1 x2 r _

theorem k_apply (n : Fin 8) (d : Fin 32) :
    k0_pay5 (F := Ideal) x0 x1 x2 (ix3 r n d) = proj (fun c => x0 (ix2 r c)) x1 x2 (col 1 n d) := by
  unfold k0_pay5
  rw [heads_of_cols 256 _ _ _ r n d (col 1 n d) (by show 1 * 256 + n.val * 32 + d.val = 256 + (n.val * 32 + d.val); omega)]
  exact fused_apply x0 x1 x2 r _

theorem v_apply (n : Fin 8) (d : Fin 32) :
    k0_pay6 (F := Ideal) x0 x1 x2 (ix3 r n d) = proj (fun c => x0 (ix2 r c)) x1 x2 (col 2 n d) := by
  unfold k0_pay6
  rw [heads_of_cols 512 _ _ _ r n d (col 2 n d) (by show 2 * 256 + n.val * 32 + d.val = 512 + (n.val * 32 + d.val); omega)]
  exact fused_apply x0 x1 x2 r _

end Fused

/-- One column of raw scores: the lane sum of q times head m's lanes of k, kept with a unit axis. -/
theorem score_col (q kk : FVec Ideal S512x8x32 .f32) (m : ℕ) (mm : Fin 8) (hm : mm.val = m)
    (hs : S512x8x32.Slices ![0, m, 0] S512x1x32) (r : Fin 512) (n : Fin 8) (u : Fin 1) :
    shapeCast S512x8x1 (multiReduction .add [2] S512x8
        (mulf q (broadcastTo S512x8x32 (extractStridedSlice S512x1x32 ![0, m, 0] kk hs) broadcasts_S512x1x32_S512x8x32))
        0x00000000#32 reduces_S512x8x32_S512x8 (.inl rfl) rfl) shapeCasts_S512x8_S512x8x1 (ix3 r n u)
      = ∑ d : Fin 32, q (ix3 r n d) * kk (ix3 r mm d) := by
  refine (keep_last _ _ r n u).trans ?_
  refine (last_sum_apply _ _ _ _ _ r n).trans ?_
  refine Finset.sum_congr rfl fun d _ => ?_
  exact congrArg (q (ix3 r n d) * ·) (head_row_bcast m kk hs _ r n d mm hm)

/-- A row maximum kept with a unit axis and repeated along the row, at any entry of the row. -/
theorem rowmax_bcast (sc : FVec Ideal S512x8x8 .f32) (r : Fin 512) (n m : Fin 8) :
    broadcastTo S512x8x8 (shapeCast S512x8x1 (multiReduction .maximumf [2] S512x8 sc 0xFF800000#32 reduces_S512x8x8_S512x8 (.inl rfl) rfl)
        shapeCasts_S512x8_S512x8x1) broadcasts_S512x8x1_S512x8x8 (ix3 r n m)
      = (Finset.univ : Finset (Fin 8)).fold max floor (fun m' => sc (ix3 r n m')) :=
  (keep_last_bcast _ _ _ r n m).trans (last_max_apply _ _ _ _ _ r n)

/-- A row sum kept with a unit axis and repeated along the row, at any entry of the row. -/
theorem rowsum_bcast (e : FVec Ideal S512x8x8 .f32) (r : Fin 512) (n m : Fin 8) :
    broadcastTo S512x8x8 (shapeCast S512x8x1 (multiReduction .add [2] S512x8 e 0x00000000#32 reduces_S512x8x8_S512x8 (.inl rfl) rfl)
        shapeCasts_S512x8_S512x8x1) broadcasts_S512x8x1_S512x8x8 (ix3 r n m)
      = ∑ m' : Fin 8, e (ix3 r n m') :=
  (keep_last_bcast _ _ _ r n m).trans (last_sum_apply _ _ _ _ _ r n)

/-- The block's softmax along the last axis, at (r, n, m): the softmax of row (r, n) of the scores. -/
theorem soft_apply (sc : FVec Ideal S512x8x8 .f32) (r : Fin 512) (n m : Fin 8) :
    divf (exp (subf sc (broadcastTo S512x8x8 (shapeCast S512x8x1 (multiReduction .maximumf [2] S512x8 sc 0xFF800000#32 reduces_S512x8x8_S512x8 (.inl rfl) rfl)
          shapeCasts_S512x8_S512x8x1) broadcasts_S512x8x1_S512x8x8)))
      (broadcastTo S512x8x8 (shapeCast S512x8x1 (multiReduction .add [2] S512x8
          (exp (subf sc (broadcastTo S512x8x8 (shapeCast S512x8x1 (multiReduction .maximumf [2] S512x8 sc 0xFF800000#32 reduces_S512x8x8_S512x8 (.inl rfl) rfl)
            shapeCasts_S512x8_S512x8x1) broadcasts_S512x8x1_S512x8x8)))
          0x00000000#32 reduces_S512x8x8_S512x8 (.inl rfl) rfl) shapeCasts_S512x8_S512x8x1) broadcasts_S512x8x1_S512x8x8) (ix3 r n m)
      = soft (fun m' => sc (ix3 r n m')) m := by
  unfold soft
  show Ideal.div (Ideal.exp (sc (ix3 r n m) - _)) _ = _
  refine congrArg₂ Ideal.div ?_ ?_
  · exact congrArg (fun t => Ideal.exp (sc (ix3 r n m) - t)) (rowmax_bcast sc r n m)
  · refine (rowsum_bcast _ r n m).trans (Finset.sum_congr rfl fun m' _ => ?_)
    exact congrArg (fun t => Ideal.exp (sc (ix3 r n m') - t)) (rowmax_bcast sc r n m')

/-- A column of raw scores against lanes already cut out with a unit head axis. -/
theorem score_col_cut (q : FVec Ideal S512x8x32 .f32) (k1 : FVec Ideal S512x1x32 .f32) (r : Fin 512) (n : Fin 8) (u : Fin 1) :
    shapeCast S512x8x1 (multiReduction .add [2] S512x8
        (mulf q (broadcastTo S512x8x32 k1 broadcasts_S512x1x32_S512x8x32))
        0x00000000#32 reduces_S512x8x32_S512x8 (.inl rfl) rfl) shapeCasts_S512x8_S512x8x1 (ix3 r n u)
      = ∑ d : Fin 32, q (ix3 r n d) * k1 (ix3 r (0 : Fin 1) d) := by
  refine (keep_last _ _ r n u).trans ?_
  refine (last_sum_apply _ _ _ _ _ r n).trans ?_
  refine Finset.sum_congr rfl fun d _ => ?_
  exact congrArg (q (ix3 r n d) * ·) (unit_mid_bcast k1 _ r n d)

/-- Eight unit-width columns given one by one. -/
theorem eight_cols_lit (c0 c1 c2 c3 c4 c5 c6 c7 : FVec Ideal S512x8x1 .f32)
    (h : Shape.Concatenates (([⟨S512x8x1, c0⟩, ⟨S512x8x1, c1⟩, ⟨S512x8x1, c2⟩, ⟨S512x8x1, c3⟩, ⟨S512x8x1, c4⟩, ⟨S512x8x1, c5⟩, ⟨S512x8x1, c6⟩, ⟨S512x8x1, c7⟩] :
        List ((s : Shape) × (s.Idx → Ideal .f32))).map (·.1)) S512x8x8 2)
    (r : Fin 512) (n m : Fin 8) :
    concatenate S512x8x8 2 [⟨S512x8x1, c0⟩, ⟨S512x8x1, c1⟩, ⟨S512x8x1, c2⟩, ⟨S512x8x1, c3⟩, ⟨S512x8x1, c4⟩, ⟨S512x8x1, c5⟩, ⟨S512x8x1, c6⟩, ⟨S512x8x1, c7⟩] h (ix3 r n m)
      = (![c0, c1, c2, c3, c4, c5, c6, c7] m) (ix3 r n (0 : Fin 1)) :=
  eight_cols ![c0, c1, c2, c3, c4, c5, c6, c7] h r n m

/-- The weights table of the block at (r, n, m), from the eight columns of raw scores of row (r, n):
    six columns given, the seventh from lanes already cut out, the eighth from head 7's lanes. -/
theorem weights_apply (q kk : FVec Ideal S512x8x32 .f32) (c0 c1 c2 c3 c4 c5 : FVec Ideal S512x8x1 .f32) (k6 : FVec Ideal S512x1x32 .f32)
    (r : Fin 512) (n m : Fin 8) (L : Fin 8 → EReal)
    (h0 : c0 (ix3 r n (0 : Fin 1)) = L 0) (h1 : c1 (ix3 r n (0 : Fin 1)) = L 1) (h2 : c2 (ix3 r n (0 : Fin 1)) = L 2)
    (h3 : c3 (ix3 r n (0 : Fin 1)) = L 3) (h4 : c4 (ix3 r n (0 : Fin 1)) = L 4) (h5 : c5 (ix3 r n (0 : Fin 1)) = L 5)
    (h6 : ∑ d : Fin 32, q (ix3 r n d) * k6 (ix3 r (0 : Fin 1) d) = L 6)
    (h7 : ∑ d : Fin 32, q (ix3 r n d) * kk (ix3 r (7 : Fin 8) d) = L 7) :
    k0_pay14 (F := Ideal) q kk c0 c1 c2 c3 c4 c5 k6 (ix3 r n m) = soft (fun m' => L m' * scale) m := by
  unfold k0_pay14
  refine (soft_apply _ r n m).trans ?_
  refine congrArg (fun S => soft S m) (funext fun m' => ?_)
  refine congrArg (· * scale) ?_
  refine (eight_cols_lit _ _ _ _ _ _ _ _ _ r n m').trans ?_
  match m' with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact (score_col_cut q k6 r n 0).trans h6
  | ⟨7, _⟩ => exact (score_col q kk 7 7 rfl _ r n 0).trans h7

/-- One step of the mixing: the running table plus column m of the weights times head m's lanes of v. -/
theorem mix_step (acc : FVec Ideal S512x8x32 .f32) (A : FVec Ideal S512x8x8 .f32) (V : FVec Ideal S512x8x32 .f32) (m : ℕ) (mm : Fin 8)
    (hm : mm.val = m) (hs1 : S512x8x8.Slices ![0, 0, m] S512x8x1) (hs2 : S512x8x32.Slices ![0, m, 0] S512x1x32)
    (r : Fin 512) (n : Fin 8) (d : Fin 32) :
    addf acc (mulf (broadcastTo S512x8x32 (extractStridedSlice S512x8x1 ![0, 0, m] A hs1) broadcasts_S512x8x1_S512x8x32)
        (broadcastTo S512x8x32 (extractStridedSlice S512x1x32 ![0, m, 0] V hs2) broadcasts_S512x1x32_S512x8x32)) (ix3 r n d)
      = acc (ix3 r n d) + A (ix3 r n mm) * V (ix3 r mm d) := by
  show acc _ + _ * _ = _
  rw [weight_col_bcast m A hs1 _ r n d mm hm, head_row_bcast m V hs2 _ r n d mm hm]

/-- The first five steps of the mixing, from zero. -/
theorem partial_mix (q kk V : FVec Ideal S512x8x32 .f32) (c0 c1 c2 c3 c4 c5 : FVec Ideal S512x8x1 .f32) (k6 : FVec Ideal S512x1x32 .f32)
    (r : Fin 512) (n : Fin 8) (d : Fin 32) :
    k0_pay15 (F := Ideal) q kk V c0 c1 c2 c3 c4 c5 k6 (ix3 r n d)
      = ((((0 + k0_pay14 (F := Ideal) q kk c0 c1 c2 c3 c4 c5 k6 (ix3 r n 0) * V (ix3 r 0 d))
          + k0_pay14 (F := Ideal) q kk c0 c1 c2 c3 c4 c5 k6 (ix3 r n 1) * V (ix3 r 1 d))
          + k0_pay14 (F := Ideal) q kk c0 c1 c2 c3 c4 c5 k6 (ix3 r n 2) * V (ix3 r 2 d))
          + k0_pay14 (F := Ideal) q kk c0 c1 c2 c3 c4 c5 k6 (ix3 r n 3) * V (ix3 r 3 d))
          + k0_pay14 (F := Ideal) q kk c0 c1 c2 c3 c4 c5 k6 (ix3 r n 4) * V (ix3 r 4 d) := by
  unfold k0_pay15
  rw [mix_step _ _ _ 4 4 rfl, mix_step _ _ _ 3 3 rfl, mix_step _ _ _ 2 2 rfl, mix_step _ _ _ 1 1 rfl, mix_step _ _ _ 0 0 rfl]
  refine congrArg (fun z => ((((z + _) + _) + _) + _) + _) ?_
  exact Ideal.ofBits_zero_f32

/-- Column 5 of the weights cut out with a unit axis. -/
theorem col5_apply (q kk : FVec Ideal S512x8x32 .f32) (c0 c1 c2 c3 c4 c5 : FVec Ideal S512x8x1 .f32) (k6 : FVec Ideal S512x1x32 .f32)
    (r : Fin 512) (n : Fin 8) (u : Fin 1) :
    k0_pay16 (F := Ideal) q kk c0 c1 c2 c3 c4 c5 k6 (ix3 r n u) = k0_pay14 (F := Ideal) q kk c0 c1 c2 c3 c4 c5 k6 (ix3 r n 5) := by
  unfold k0_pay16
  exact weight_col 5 _ _ r n u 5 rfl

/-- Head 5's lanes of v cut out with a unit axis. -/
theorem row5_apply (V : FVec Ideal S512x8x32 .f32) (r : Fin 512) (u : Fin 1) (d : Fin 32) :
    k0_pay17 (F := Ideal) V (ix3 r u d) = V (ix3 r 5 d) := by
  unfold k0_pay17
  exact head_row 5 V _ r u d 5 rfl

theorem mix_total (f : Fin 8 → EReal) :
    (((((((0 + f 0) + f 1) + f 2) + f 3) + f 4) + f 5) + f 6) + f 7 = ∑ m : Fin 8, f m := by
  rw [Fin.sum_univ_eight, zero_add]

/-- The last payload at (r, c): the residual plus the second affine map of the mixed table read as 256 channels,
    the mixing finished by its last three steps. -/
theorem final_apply (v1 : FVec Ideal S512x256 .f32) (V : FVec Ideal S512x8x32 .f32) (A : FVec Ideal S512x8x8 .f32)
    (acc5 : FVec Ideal S512x8x32 .f32) (a5 : FVec Ideal S512x8x1 .f32) (v5 : FVec Ideal S512x1x32 .f32)
    (Wp : Vec Ideal S256x256 .bf16) (bp : Vec Ideal S256 .f32) (r : Fin 512) (c : Fin 256) (O : Fin 8 → Fin 32 → EReal)
    (hO : ∀ n d, ((acc5 (ix3 r n d) + a5 (ix3 r n (0 : Fin 1)) * v5 (ix3 r (0 : Fin 1) d)) + A (ix3 r n 6) * V (ix3 r 6 d))
        + A (ix3 r n 7) * V (ix3 r 7 d) = O n d) :
    k0_pay1 (F := Ideal) v1 V A acc5 a5 v5 Wp bp (ix2 r c)
      = v1 (ix2 r c) + ((∑ k : Fin 256, O (headOf k) (laneOf k) * Wp (ix2 k c)) + bp (ix1 c)) := by
  unfold k0_pay1
  rw [addf_apply, addf_apply, bias_rows]
  simp only [matmul]
  rw [Cert.DenseRows.matmul_rows_apply _ rfl rfl (fun _ _ => rfl) (fun _ _ => rfl) (fun _ _ => rfl) (fun _ _ => rfl)]
  simp only [truncf_apply, shapeCast_self]
  refine congrArg (fun z => v1 (ix2 r c) + (z + bp (ix1 c))) (Finset.sum_congr rfl fun k _ => ?_)
  refine congrArg (· * Wp (ix2 k c)) ?_
  refine (chans_of_heads _ _ r k (headOf k) (laneOf k) rfl rfl).trans ?_
  refine Eq.trans ?_ (hO (headOf k) (laneOf k))
  rw [mix_step _ _ _ 7 7 rfl, mix_step _ _ _ 6 6 rfl]
  show (acc5 _ + _ * _) + _ + _ = _
  rw [unit_last_bcast, unit_mid_bcast]

section Block
variable (x0 : Vec Ideal S512x256 .f32) (x1 : Vec Ideal S256x768 .bf16) (x2 : Vec Ideal S768 .f32)
  (x3 : Vec Ideal S256x256 .bf16) (x4 : Vec Ideal S256 .f32) (r : Fin 512)

theorem raw0 (n : Fin 8) (u : Fin 1) :
    k0_pay7 (F := Ideal) x0 x1 x2 (ix3 r n u)
      = ∑ d : Fin 32, proj (fun c => x0 (ix2 r c)) x1 x2 (col 0 n d) * proj (fun c => x0 (ix2 r c)) x1 x2 (col 1 0 d) := by
  unfold k0_pay7
  refine (score_col _ _ 0 0 rfl _ r n u).trans (Finset.sum_congr rfl fun d _ => ?_)
  rw [q_apply, k_apply]

theorem raw1 (n : Fin 8) (u : Fin 1) :
    k0_pay8 (F := Ideal) x0 x1 x2 (ix3 r n u)
      = ∑ d : Fin 32, proj (fun c => x0 (ix2 r c)) x1 x2 (col 0 n d) * proj (fun c => x0 (ix2 r c)) x1 x2 (col 1 1 d) := by
  unfold k0_pay8
  refine (score_col _ _ 1 1 rfl _ r n u).trans (Finset.sum_congr rfl fun d _ => ?_)
  rw [q_apply, k_apply]

theorem raw2 (n : Fin 8) (u : Fin 1) :
    k0_pay9 (F := Ideal) x0 x1 x2 (ix3 r n u)
      = ∑ d : Fin 32, proj (fun c => x0 (ix2 r c)) x1 x2 (col 0 n d) * proj (fun c => x0 (ix2 r c)) x1 x2 (col 1 2 d) := by
  unfold k0_pay9
  refine (score_col _ _ 2 2 rfl _ r n u).trans (Finset.sum_congr rfl fun d _ => ?_)
  rw [q_apply, k_apply]

theorem raw3 (n : Fin 8) (u : Fin 1) :
    k0_pay10 (F := Ideal) x0 x1 x2 (ix3 r n u)
      = ∑ d : Fin 32, proj (fun c => x0 (ix2 r c)) x1 x2 (col 0 n d) * proj (fun c => x0 (ix2 r c)) x1 x2 (col 1 3 d) := by
  unfold k0_pay10
  refine (score_col _ _ 3 3 rfl _ r n u).trans (Finset.sum_congr rfl fun d _ => ?_)
  rw [q_apply, k_apply]

theorem raw4 (n : Fin 8) (u : Fin 1) :
    k0_pay11 (F := Ideal) x0 x1 x2 (ix3 r n u)
      = ∑ d : Fin 32, proj (fun c => x0 (ix2 r c)) x1 x2 (col 0 n d) * proj (fun c => x0 (ix2 r c)) x1 x2 (col 1 4 d) := by
  unfold k0_pay11
  refine (score_col _ _ 4 4 rfl _ r n u).trans (Finset.sum_congr rfl fun d _ => ?_)
  rw [q_apply, k_apply]

theorem raw5 (n : Fin 8) (u : Fin 1) :
    k0_pay12 (F := Ideal) x0 x1 x2 (ix3 r n u)
      = ∑ d : Fin 32, proj (fun c => x0 (ix2 r c)) x1 x2 (col 0 n d) * proj (fun c => x0 (ix2 r c)) x1 x2 (col 1 5 d) := by
  unfold k0_pay12
  refine (score_col _ _ 5 5 rfl _ r n u).trans (Finset.sum_congr rfl fun d _ => ?_)
  rw [q_apply, k_apply]

/-- Head 6's lanes of k cut out with a unit axis. -/
theorem cut6 (u : Fin 1) (d : Fin 32) :
    k0_pay13 (F := Ideal) x0 x1 x2 (ix3 r u d) = k0_pay5 (F := Ideal) x0 x1 x2 (ix3 r 6 d) := by
  unfold k0_pay13
  exact head_row 6 _ _ r u d 6 rfl

/-- The block's weights at (r, n, m) are the weights of the pixel in row r. -/
theorem block_weights (n m : Fin 8) :
    k0_pay14 (F := Ideal) (k0_pay4 x0 x1 x2) (k0_pay5 x0 x1 x2) (k0_pay7 x0 x1 x2) (k0_pay8 x0 x1 x2) (k0_pay9 x0 x1 x2)
        (k0_pay10 x0 x1 x2) (k0_pay11 x0 x1 x2) (k0_pay12 x0 x1 x2) (k0_pay13 x0 x1 x2) (ix3 r n m)
      = attn (fun c => x0 (ix2 r c)) x1 x2 n m := by
  refine (weights_apply _ _ _ _ _ _ _ _ _ r n m
    (fun m' => ∑ d : Fin 32, proj (fun c => x0 (ix2 r c)) x1 x2 (col 0 n d) * proj (fun c => x0 (ix2 r c)) x1 x2 (col 1 m' d))
    (raw0 x0 x1 x2 r n 0) (raw1 x0 x1 x2 r n 0) (raw2 x0 x1 x2 r n 0) (raw3 x0 x1 x2 r n 0) (raw4 x0 x1 x2 r n 0) (raw5 x0 x1 x2 r n 0)
    (Finset.sum_congr rfl fun d _ => by rw [q_apply, cut6, k_apply])
    (Finset.sum_congr rfl fun d _ => by rw [q_apply, k_apply])).trans ?_
  rfl

/-- THE ROW LEMMA: what the body leaves in the output block at (r, c) is the pixel function of the input block's row r. -/
theorem out_row (c : Fin 256) :
    out0_5 (F := Ideal) x0 x1 x2 x3 x4 (ix2 r c) = outRow (fun c' => x0 (ix2 r c')) x1 x2 x3 x4 c := by
  have hz2 : (![0, 0] : Fin 2 → Nat) = fun _ => 0 := funext fun a => by fin_cases a <;> rfl
  have hz1 : (![0] : Fin 1 → Nat) = fun _ => 0 := funext fun a => by fin_cases a; rfl
  unfold out0_5
  rw [View.canon_unit_zero hz2]
  simp only [View.ld_unit_zero (S := S512x256) hz2, View.ld_unit_zero (S := S256x768) hz2, View.ld_unit_zero (S := S768) hz1,
    View.ld_unit_zero (S := S256x256) hz2, View.ld_unit_zero (S := S256) hz1]
  refine (final_apply _ _ _ _ _ _ _ _ r c (fun n d => mixed (fun c' => x0 (ix2 r c')) x1 x2 n d) (fun n d => ?_)).trans ?_
  · rw [partial_mix, col5_apply, row5_apply]
    simp only [block_weights, v_apply]
    exact mix_total (fun m => attn (fun c' => x0 (ix2 r c')) x1 x2 n m * proj (fun c' => x0 (ix2 r c')) x1 x2 (col 2 m d))
  · rw [show k0_pay2 (F := Ideal) x0 = x0 from shapeCast_self x0 _]
    rfl

end Block

end Cert.HeadAttention.KernelRow
end
-- ==== Proof.KernelRun.lean ====
/-
  From one block to the whole result array.

  The program reshapes the [16, 64, 64, 256] image to the 65536 × 256 matrix of its pixel rows (row (b·64 + h)·64 + w is
  pixel (b, h, w)), runs the kernel body over the 128 blocks of 512 consecutive rows, each block written back to the same
  rows of an output matrix, and reshapes that matrix back to the image's shape. The two weight matrices pass through a
  narrowing that is the identity on the extended reals; every parameter array reaches every grid point whole.

  Given that the body's output block is, row by row, the per-pixel function `outRow` of the corresponding input row
  (`RowLemma`, the arithmetic content, a hypothesis here), what point t writes back is block t of ONE matrix — `resultRows`
  of the matrix of pixel rows; the blocks tile the 65536 rows (row s lies in block s / 512), so the output matrix IS that
  matrix; and read back in the image's shape it is `result`: every pixel through `outRow`. The arguments end as launched.
-/
import proofs.«106815_j84817014162138_2_alg».proof.Proof.Gen.KernelIdeal.Frame
import proofs.«106815_j84817014162138_2_alg».proof.Proof.HeadAttention
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.HeadAttention.Kernel

open Cert.KernelIdeal Cert.KernelIdeal.Gen Idealize.ShloMosaic Idealize.ShloMosaic.TcCoe Idealize.SL.Sem
open Idealize.ShloMosaic.ValueIdx
open Idealize.ShloMosaic.Pipeline (Dat)

/-- The body's effect on one block is the per-pixel function on each of its rows: the arithmetic content of the
    kernel, taken here as a hypothesis. -/
def RowLemma : Prop := ∀ (x0 : Vec Ideal S512x256 .f32) (x1 : Vec Ideal S256x768 .bf16) (x2 : Vec Ideal S768 .f32)
    (x3 : Vec Ideal S256x256 .bf16) (x4 : Vec Ideal S256 .f32) (r : Fin 512) (c : Fin 256),
  Gen.out0_5 (F := Ideal) x0 x1 x2 x3 x4 (ix2 r c) = Cert.HeadAttention.outRow (fun c' => x0 (ix2 r c')) x1 x2 x3 x4 c

section

variable (m : (ℓ : Loc nD τ sig) → Buf (Elt Ideal) ℓ) (ρ : Dev nD → PrngReg)

/-! ## The arrays as the region finds them -/

/-- The matrix of pixel rows is the image reshaped. -/
theorem V_rows (c : Dev nD) : (V m c main_v0 : S65536x256.Idx → EReal)
    = shapeCast S65536x256 (m ((c.tc : Thread nD τ).loc main_arg0) : S16x64x64x256.Idx → EReal) shapeCasts_S16x64x64x256_S65536x256 := by
  show StableHlo.after hostOps0 (fun b => m (c, b)) (Proc.devRef .tc main_v0) = _
  after_results
  rfl

/-- Narrowing the first weight matrix changes nothing on the extended reals. -/
theorem V_w (c : Dev nD) : (V m c main_v1 : S256x768.Idx → EReal) = m ((c.tc : Thread nD τ).loc main_arg1) := by
  show StableHlo.after hostOps0 (fun b => m (c, b)) (Proc.devRef .tc main_v1) = _
  after_results
  rfl

/-- Nor does narrowing the second. -/
theorem V_wp (c : Dev nD) : (V m c main_v2 : S256x256.Idx → EReal) = m ((c.tc : Thread nD τ).loc main_arg3) := by
  show StableHlo.after hostOps0 (fun b => m (c, b)) (Proc.devRef .tc main_v2) = _
  after_results
  rfl

/-- Row `(b·64 + h)·64 + w` of the matrix of pixel rows is pixel `(b, h, w)` of the image. -/
theorem rows_apply (c : Dev nD) (s : Fin 65536) (k : Fin 256) (b : Fin 16) (h w : Fin 64)
    (hs : s.val = (b.val * 64 + h.val) * 64 + w.val) :
    (V m c main_v0 : S65536x256.Idx → EReal) (ix2 s k)
      = (m ((c.tc : Thread nD τ).loc main_arg0) : S16x64x64x256.Idx → EReal) (ix4 b h w k) := by
  rw [V_rows]
  refine shapeCast_apply _ _ _ _ ?_
  show (S16x64x64x256.rowMajor (ix4 b h w k)).val = (S65536x256.rowMajor (ix2 s k)).val
  rw [Shape.rowMajor_val_two, Shape.rowMajor_val_four]
  show ((b.val * 64 + h.val) * 64 + w.val) * 256 + k.val = s.val * 256 + k.val
  rw [hs]

/-! ## The blocks at a grid point -/

/-- The printed index maps, decided once over the 128 grid points: the pixel-row windows (input 0 and the output)
    sit at block `(t, 0)`, every parameter window at block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Input block `t` is rows `512·t … 512·t + 511` of the matrix of pixel rows. -/
theorem rowsBlock_apply (c : Dev nD) (t : Fin cfg0.N) (y : S512x256.Idx) (i : S65536x256.Idx)
    (h0 : (i 0).val = 512 * t.val + (y 0).val) (h1 : (i 1).val = (y 1).val) :
    (iblk m c 0 t : Vec Ideal S512x256 .f32) y = (V m c main_v0 : S65536x256.Idx → EReal) i := by
  obtain ⟨e0, e1, -⟩ := index_facts t
  unfold iblk
  rw [View.read_apply]
  show V m c main_v0 _ = V m c main_v0 _
  congr 1
  funext a
  apply Fin.ext
  match a with
  | ⟨0, _⟩ => show win0_0.index t (0 : Fin 2) * 512 + 1 * (y 0).val = (i 0).val; omega
  | ⟨1, _⟩ => show win0_0.index t (1 : Fin 2) * 256 + 1 * (y 1).val = (i 1).val; omega

/-- Each parameter window's block is its whole array, at every point. -/
theorem wBlock_eq (c : Dev nD) (t : Fin cfg0.N) : (iblk m c 1 t : Vec Ideal S256x768 .bf16) = V m c main_v1 := by
  obtain ⟨-, -, e0, e1, -⟩ := index_facts t
  funext y
  unfold iblk
  rw [View.read_apply]
  show V m c main_v1 _ = V m c main_v1 y
  congr 1
  funext a
  apply Fin.ext
  match a with
  | ⟨0, _⟩ => show win0_1.index t (0 : Fin 2) * 256 + 1 * (y 0).val = (y 0).val; omega
  | ⟨1, _⟩ => show win0_1.index t (1 : Fin 2) * 768 + 1 * (y 1).val = (y 1).val; omega

theorem bqBlock_eq (c : Dev nD) (t : Fin cfg0.N) : (iblk m c 2 t : Vec Ideal S768 .f32) = V m c main_arg2 := by
  obtain ⟨-, -, -, -, e0, -⟩ := index_facts t
  funext y
  unfold iblk
  rw [View.read_apply]
  show V m c main_arg2 _ = V m c main_arg2 y
  congr 1
  funext a
  apply Fin.ext
  match a with
  | ⟨0, _⟩ => show win0_2.index t (0 : Fin 1) * 768 + 1 * (y 0).val = (y 0).val; omega

theorem wpBlock_eq (c : Dev nD) (t : Fin cfg0.N) : (iblk m c 3 t : Vec Ideal S256x256 .bf16) = V m c main_v2 := by
  obtain ⟨-, -, -, -, -, e0, e1, -⟩ := index_facts t
  funext y
  unfold iblk
  rw [View.read_apply]
  show V m c main_v2 _ = V m c main_v2 y
  congr 1
  funext a
  apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem bpBlock_eq (c : Dev nD) (t : Fin cfg0.N) : (iblk m c 4 t : Vec Ideal S256 .f32) = V m c main_arg4 := by
  obtain ⟨-, -, -, -, -, -, -, e0, -⟩ := index_facts t
  funext y
  unfold iblk
  rw [View.read_apply]
  show V m c main_arg4 _ = V m c main_arg4 y
  congr 1
  funext a
  apply Fin.ext
  match a with
  | ⟨0, _⟩ => show win0_4.index t (0 : Fin 1) * 256 + 1 * (y 0).val = (y 0).val; omega

/-! ## What each point writes back, and the matrix of result rows -/

/-- The matrix the output array ends holding: every pixel row through the per-pixel function. -/
abbrev rowsOut (c : Dev nD) : S65536x256.Idx → EReal :=
  Cert.HeadAttention.resultRows (m ((c.tc : Thread nD τ).loc main_arg1)) (m ((c.tc : Thread nD τ).loc main_arg2))
    (m ((c.tc : Thread nD τ).loc main_arg3)) (m ((c.tc : Thread nD τ).loc main_arg4)) (V m c main_v0)

/-- One entry of the body's output block, stated over variables: when row `y 0` of the input block is row `i 0` of a
    matrix `X` and the columns agree, the entry is the per-pixel function of that row of `X`. -/
theorem block_entry (hrow : RowLemma) (x0 : Vec Ideal S512x256 .f32) (x1 : Vec Ideal S256x768 .bf16) (x2 : Vec Ideal S768 .f32)
    (x3 : Vec Ideal S256x256 .bf16) (x4 : Vec Ideal S256 .f32) (X : S65536x256.Idx → EReal) (y : S512x256.Idx) (i : S65536x256.Idx)
    (hx : ∀ k : Fin 256, x0 (ix2 (y 0) k) = X (ix2 (i 0) k)) (hi : (i 1).val = (y 1).val) :
    out0_5 (F := Ideal) x0 x1 x2 x3 x4 y = Cert.HeadAttention.resultRows x1 x2 x3 x4 X i := by
  refine (congrArg (out0_5 (F := Ideal) x0 x1 x2 x3 x4) (eq_ix2 y)).trans ((hrow x0 x1 x2 x3 x4 (y 0) (y 1)).trans ?_)
  unfold Cert.HeadAttention.resultRows
  have hc : (i 1 : Fin 256) = y 1 := Fin.ext hi
  rw [hc]
  congr 1
  funext k
  exact hx k

/-- WHAT POINT `t` WRITES BACK is block `t` of the matrix of result rows. -/
theorem flushed_eq (hrow : RowLemma) (c : Dev nD) (t : Fin cfg0.N) :
    (dats m 0 c).flushed 5 t = ((cfg0.win 5).blk t).view.read (Elt Ideal) (rowsOut m c) := by
  show (cfg0.win 5).cut (grid0.coords t) ((dats m 0 c).after 5 t) = _
  rw [after0_5, wBlock_eq, bqBlock_eq, wpBlock_eq, bpBlock_eq, V_w, V_wp, V_main_arg2, V_main_arg4]
  obtain ⟨-, -, -, -, -, -, -, -, e0, e1⟩ := index_facts t
  funext y
  rw [View.read_apply]
  refine block_entry hrow (iblk m c 0 t) (m ((c.tc : Thread nD τ).loc main_arg1)) (m ((c.tc : Thread nD τ).loc main_arg2))
    (m ((c.tc : Thread nD τ).loc main_arg3)) (m ((c.tc : Thread nD τ).loc main_arg4)) (V m c main_v0) y
    (((cfg0.win 5).blk t).view.emb y) (fun k => ?_) ?_
  · refine rowsBlock_apply m c t (ix2 (y 0) k) (ix2 ((((cfg0.win 5).blk t).view.emb y) 0) k) ?_ rfl
    show win0_5.index t (0 : Fin 2) * 512 + 1 * (y 0).val = 512 * t.val + (y 0).val
    omega
  · show win0_5.index t (1 : Fin 2) * 256 + 1 * (y 1).val = (y 1).val
    omega

/-! ## The cover, and the output array after the region -/

/-- An index of the array is in point `t`'s block iff each coordinate is in the block's range on its axis. -/
theorem mem_outBlock (t : Fin cfg0.N) (i : S65536x256.Idx) :
    i ∈ ((cfg0.win 5).blk t).view.set ↔ ∀ a : Fin 2, win0_5.index t a * S512x256.size a ≤ (i a).val
      ∧ (i a).val < win0_5.index t a * S512x256.size a + S512x256.size a := by
  show i ∈ ((View.whole main_v3).slice (win0_5.rect t)).set ↔ _
  rw [View.set_slice_whole, Rect.mem_set_unit]
  exact Iff.rfl

/-- Row `s` lies in the block of point `s / 512`: the 128 blocks of 512 rows tile the 65536 rows. -/
theorem cover (i : S65536x256.Idx) :
    ∃ t : Fin cfg0.N, (cfg0.win 5).flush t = true ∧ i ∈ ((cfg0.win 5).blk t).view.set := by
  have hi0 : (i 0).val < 65536 := (i 0).isLt
  have hi1 : (i 1).val < 256 := (i 1).isLt
  have ht : (i 0).val / 512 < cfg0.N := by rw [show cfg0.N = 128 from N_0]; omega
  refine ⟨⟨(i 0).val / 512, ht⟩, flush0_5 _, ?_⟩
  obtain ⟨-, -, -, -, -, -, -, -, e0, e1⟩ := index_facts ⟨(i 0).val / 512, ht⟩
  have e0' : win0_5.index ⟨(i 0).val / 512, ht⟩ (0 : Fin 2) = (i 0).val / 512 := e0
  rw [mem_outBlock]
  intro a
  match a with
  | ⟨0, _⟩ =>
    show win0_5.index ⟨(i 0).val / 512, ht⟩ (0 : Fin 2) * 512 ≤ (i 0).val
      ∧ (i 0).val < win0_5.index ⟨(i 0).val / 512, ht⟩ (0 : Fin 2) * 512 + 512
    omega
  | ⟨1, _⟩ =>
    show win0_5.index ⟨(i 0).val / 512, ht⟩ (1 : Fin 2) * 256 ≤ (i 1).val
      ∧ (i 1).val < win0_5.index ⟨(i 0).val / 512, ht⟩ (1 : Fin 2) * 256 + 256
    omega

/-- THE OUTPUT ARRAY after the region is the matrix of result rows. -/
theorem final (hrow : RowLemma) (c : Dev nD) : (dats m 0 c).arrAt 5 cfg0.N = rowsOut m c :=
  (dats m 0 c).arrAt_eq_of_cover 5 (rowsOut m c) (fun t _ => flushed_eq m hrow c t) cover

/-! ## The host tail: the result array -/

/-- The reshape after the region reads the output array, which is the matrix of result rows. -/
theorem tail_result (hrow : RowLemma) (c : Dev nD) :
    (Pipeline.afterTail₀ cfgs (dats m) 0 (V0 m) [hostOps1] c main_v4 : S16x64x64x256.Idx → EReal)
      = shapeCast S16x64x64x256 (rowsOut m c) shapeCasts_S65536x256_S16x64x64x256 := by
  have e : (Pipeline.withArrays (cfgs 0).spec c (V0 m c) (fun w => (dats m 0 c).arrAt w (cfgs 0).N)
      (Proc.devRef .tc main_v3) : S65536x256.Idx → EReal) = rowsOut m c :=
    (Pipeline.withArrays_arr spec0 launch0.win.arr_inj c _ _ 5).trans (final m hrow c)
  unfold Pipeline.afterTail₀
  show StableHlo.after hostOps1 _ (Proc.devRef .tc main_v4) = _
  after_results
  show shapeCast S16x64x64x256 (Pipeline.withArrays (cfgs 0).spec c (V0 m c) (fun w => (dats m 0 c).arrAt w (cfgs 0).N)
      (Proc.devRef .tc main_v3) : S65536x256.Idx → EReal) shapeCasts_S65536x256_S16x64x64x256 = _
  rw [e]

/-- The matrix of result rows, read back in the image's shape, is the per-pixel function at every pixel: entry
    `(b, h, w, k)` is entry `((b·64 + h)·64 + w, k)` of the matrix, whose row is pixel `(b, h, w)` of the image. -/
theorem reshape_rows (c : Dev nD) :
    shapeCast S16x64x64x256 (rowsOut m c) shapeCasts_S65536x256_S16x64x64x256
      = Cert.HeadAttention.result (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg0)) := by
  funext i
  have hb : (i 0).val < 16 := (i 0).isLt
  have hh : (i 1).val < 64 := (i 1).isLt
  have hw : (i 2).val < 64 := (i 2).isLt
  have hs : ((i 0).val * 64 + (i 1).val) * 64 + (i 2).val < 65536 := by omega
  refine (shapeCast_apply (s := S65536x256) (t := S16x64x64x256) (rowsOut m c) shapeCasts_S65536x256_S16x64x64x256 i
    (ix2 ⟨((i 0).val * 64 + (i 1).val) * 64 + (i 2).val, hs⟩ (i 3)) ?_).trans ?_
  · show (S65536x256.rowMajor (ix2 ⟨((i 0).val * 64 + (i 1).val) * 64 + (i 2).val, hs⟩ (i 3))).val = (S16x64x64x256.rowMajor i).val
    rw [Shape.rowMajor_val_two, Shape.rowMajor_val_four]
    rfl
  · unfold Cert.HeadAttention.result
    show Cert.HeadAttention.outRow (fun k => (V m c main_v0 : S65536x256.Idx → EReal) (ix2 ⟨((i 0).val * 64 + (i 1).val) * 64 + (i 2).val, hs⟩ k)) _ _ _ _ (i 3)
      = Cert.HeadAttention.outRow (fun k => (m ((c.tc : Thread nD τ).loc main_arg0) : S16x64x64x256.Idx → EReal) (ix4 (i 0) (i 1) (i 2) k)) _ _ _ _ (i 3)
    congr 1
    funext k
    exact rows_apply m c ⟨((i 0).val * 64 + (i 1).val) * 64 + (i 2).val, hs⟩ k (i 0) (i 1) (i 2) rfl

end

/-! ## The run -/

/-- THE KERNEL'S RUN: from any memory with zero counters every weakly fair execution of the program terminates with the
    result array holding the per-pixel function of every pixel of the image, and the five arguments as launched. -/
theorem kernel_run (hrow : RowLemma) (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v4)
          = Cert.HeadAttention.result (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run defs _ _).mono (fun _ h c => ⟨
      ((h c).2 main_v4 (Pipeline.mem_restRefs_of main_v4 (by decide) (by decide))).trans ((tail_result m hrow c).trans (reshape_rows m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩) (run_main m ρ)

end Cert.HeadAttention.Kernel

end
-- ==== Proof.ReferenceRows.lean ====
/-
  The reference program computes, at every pixel, the per-pixel function of `Cert.HeadAttention`.

  Each stage of the reference is read at an index written out in coordinates and identified with one of the
  per-pixel quantities: the fused affine map (proj), its three slices as the q, k, v tables, the scaled scores,
  the row maximum folded from −∞ (the later maximum with −∞ changes nothing), the weights exp(score − maximum),
  their row sums (started from zero), the quotients, the mixing of v's rows, the reshape back to 256 channels
  (channel c ↦ head c / 32, lane c % 32), and the second affine map with the residual. The only index
  arithmetic is that of the reshapes: pixel number s = 64·h + w within an image, and column 256·t + 32·n + d.
-/
import proofs.«106815_j84817014162138_2_alg».proof.Proof.Gen.ReferenceIdeal.Read
import proofs.«106815_j84817014162138_2_alg».proof.Proof.HeadAttention

noncomputable section

namespace Cert.HeadAttention.Reference

open Cert.ReferenceIdeal Cert.ReferenceIdeal.Gen Cert.ReferenceIdeal.Read Idealize.ShloMosaic Idealize.ShloMosaic.ValueIdx
open Cert.HeadAttention

/-! The reference program, stage by stage, is the per-pixel function of `Cert.HeadAttention`.
    Pixels are indexed (b, s) with s = 64·h + w in the middle stages and (b, h, w) at the two ends. -/

variable (x0 : (⟨S16x64x64x256, .f32⟩ : BufTy).Contents (Elt Ideal)) (x1 : (⟨S256x768, .f32⟩ : BufTy).Contents (Elt Ideal))
  (x2 : (⟨S768, .f32⟩ : BufTy).Contents (Elt Ideal)) (x3 : (⟨S256x256, .f32⟩ : BufTy).Contents (Elt Ideal))
  (x4 : (⟨S256, .f32⟩ : BufTy).Contents (Elt Ideal))

/-- The 256 channels of pixel (b, h, w). -/
def row (b : Fin 16) (h w : Fin 64) : Fin 256 → EReal := fun c => x0 (ix4 b h w c)

/-- Row `s / 64` and column `s % 64` of the pixel numbered `s` within its image. -/
def hOf (s : Fin 4096) : Fin 64 := ⟨s.val / 64, by omega⟩
def wOf (s : Fin 4096) : Fin 64 := ⟨s.val % 64, Nat.mod_lt _ (by decide)⟩

/-- The channels of pixel `s` of image `b`. -/
def rowS (b : Fin 16) (s : Fin 4096) : Fin 256 → EReal := row x0 b (hOf s) (wOf s)

/-- The fused affine map: matrix product plus broadcast bias. -/
theorem v3_eq (b : Fin 16) (h w : Fin 64) (j : Fin 768) :
    val_main_v3 (F := Ideal) x0 x1 x2 (ix4 b h w j) = proj (row x0 b h w) x1 x2 j := by
  rw [val_main_v3_apply, val_main_v0_apply, val_main_v2_apply, val_main_v1_apply]
  have el : ∀ k : Fin 256, lidx_main_v0 (ix4 b h w j) k = ix4 b h w k := fun k => funext fun a => by
    match a with | ⟨0, _⟩ => rfl | ⟨1, _⟩ => rfl | ⟨2, _⟩ => rfl | ⟨3, _⟩ => rfl
  have er : ∀ k : Fin 256, ridx_main_v0 (ix4 b h w j) k = ix2 k j := fun k => funext fun a => by
    match a with | ⟨0, _⟩ => rfl | ⟨1, _⟩ => rfl
  have eb : idx_main_v1 (idx_main_v2 (ix4 b h w j)) = ix1 j := funext fun a => by
    match a with | ⟨0, _⟩ => rfl
  rw [eb]
  unfold proj row
  exact congrArg (· + x2 (ix1 j)) (Finset.sum_congr rfl fun k _ => by rw [el, er])

/-- The reshape to [16, 4096, 3, 8, 32]: part `t`, head `n`, lane `d` of pixel (b, s) is column `col t n d`. -/
theorem v4_eq (b : Fin 16) (s : Fin 4096) (t : Fin 3) (n : Fin 8) (d : Fin 32) :
    val_main_v4 (F := Ideal) x0 x1 x2 (ix5 b s t n d) = proj (rowS x0 b s) x1 x2 (col t n d) := by
  rw [val_main_v4_apply]
  have e : idx_main_v4 (ix5 b s t n d) = ix4 b (hOf s) (wOf s) (col t n d) := funext fun a => Fin.ext (by
    have hb := b.isLt; have hs := s.isLt; have ht := t.isLt; have hn := n.isLt; have hd := d.isLt
    match a with
    | ⟨0, _⟩ => show (((((b.val * 4096 + s.val) * 3 + t.val) * 8 + n.val) * 32 + d.val) / 3145728) = b.val; omega
    | ⟨1, _⟩ => show (((((b.val * 4096 + s.val) * 3 + t.val) * 8 + n.val) * 32 + d.val) / 49152 % 64) = s.val / 64; omega
    | ⟨2, _⟩ => show (((((b.val * 4096 + s.val) * 3 + t.val) * 8 + n.val) * 32 + d.val) / 768 % 64) = s.val % 64; omega
    | ⟨3, _⟩ => show (((((b.val * 4096 + s.val) * 3 + t.val) * 8 + n.val) * 32 + d.val) % 768) = t.val * 256 + n.val * 32 + d.val; omega)
  rw [e, v3_eq]; rfl

/-- The three slices, each reshaped to [16, 4096, 8, 32], are the q, k and v tables of the pixel. -/
theorem v6_eq (b : Fin 16) (s : Fin 4096) (n : Fin 8) (d : Fin 32) :
    val_main_v6 (F := Ideal) x0 x1 x2 (ix4 b s n d) = proj (rowS x0 b s) x1 x2 (col 0 n d) := by
  rw [val_main_v6_apply, val_main_v5_apply]
  have e : idx_main_v5 (idx_main_v6 (ix4 b s n d)) = ix5 b s 0 n d := funext fun a => Fin.ext (by
    have hb := b.isLt; have hs := s.isLt; have hn := n.isLt; have hd := d.isLt
    match a with
    | ⟨0, _⟩ => show ((((b.val * 4096 + s.val) * 8 + n.val) * 32 + d.val) / 1048576) = b.val; omega
    | ⟨1, _⟩ => show ((((b.val * 4096 + s.val) * 8 + n.val) * 32 + d.val) / 256 % 4096) = s.val; omega
    | ⟨2, _⟩ => rfl
    | ⟨3, _⟩ => show ((((b.val * 4096 + s.val) * 8 + n.val) * 32 + d.val) / 32 % 8) = n.val; omega
    | ⟨4, _⟩ => show ((((b.val * 4096 + s.val) * 8 + n.val) * 32 + d.val) % 32) = d.val; omega)
  rw [e, v4_eq]

theorem v8_eq (b : Fin 16) (s : Fin 4096) (n : Fin 8) (d : Fin 32) :
    val_main_v8 (F := Ideal) x0 x1 x2 (ix4 b s n d) = proj (rowS x0 b s) x1 x2 (col 1 n d) := by
  rw [val_main_v8_apply, val_main_v7_apply]
  have e : idx_main_v7 (idx_main_v8 (ix4 b s n d)) = ix5 b s 1 n d := funext fun a => Fin.ext (by
    have hb := b.isLt; have hs := s.isLt; have hn := n.isLt; have hd := d.isLt
    match a with
    | ⟨0, _⟩ => show ((((b.val * 4096 + s.val) * 8 + n.val) * 32 + d.val) / 1048576) = b.val; omega
    | ⟨1, _⟩ => show ((((b.val * 4096 + s.val) * 8 + n.val) * 32 + d.val) / 256 % 4096) = s.val; omega
    | ⟨2, _⟩ => rfl
    | ⟨3, _⟩ => show ((((b.val * 4096 + s.val) * 8 + n.val) * 32 + d.val) / 32 % 8) = n.val; omega
    | ⟨4, _⟩ => show ((((b.val * 4096 + s.val) * 8 + n.val) * 32 + d.val) % 32) = d.val; omega)
  rw [e, v4_eq]

theorem v10_eq (b : Fin 16) (s : Fin 4096) (n : Fin 8) (d : Fin 32) :
    val_main_v10 (F := Ideal) x0 x1 x2 (ix4 b s n d) = proj (rowS x0 b s) x1 x2 (col 2 n d) := by
  rw [val_main_v10_apply, val_main_v9_apply]
  have e : idx_main_v9 (idx_main_v10 (ix4 b s n d)) = ix5 b s 2 n d := funext fun a => Fin.ext (by
    have hb := b.isLt; have hs := s.isLt; have hn := n.isLt; have hd := d.isLt
    match a with
    | ⟨0, _⟩ => show ((((b.val * 4096 + s.val) * 8 + n.val) * 32 + d.val) / 1048576) = b.val; omega
    | ⟨1, _⟩ => show ((((b.val * 4096 + s.val) * 8 + n.val) * 32 + d.val) / 256 % 4096) = s.val; omega
    | ⟨2, _⟩ => rfl
    | ⟨3, _⟩ => show ((((b.val * 4096 + s.val) * 8 + n.val) * 32 + d.val) / 32 % 8) = n.val; omega
    | ⟨4, _⟩ => show ((((b.val * 4096 + s.val) * 8 + n.val) * 32 + d.val) % 32) = d.val; omega)
  rw [e, v4_eq]

/-- The scaled scores: q's row n against k's row m over the 32 lanes, times the constant. -/
theorem v13_eq (b : Fin 16) (s : Fin 4096) (n m : Fin 8) :
    val_main_v13 (F := Ideal) x0 x1 x2 (ix4 b s n m) = score (rowS x0 b s) x1 x2 n m := by
  rw [val_main_v13_apply, val_main_v11_apply, val_main_v12_apply, val_main_cst_apply]
  have el : ∀ k : Fin 32, lidx_main_v11 (ix4 b s n m) k = ix4 b s n k := fun k => funext fun a => by
    match a with | ⟨0, _⟩ => rfl | ⟨1, _⟩ => rfl | ⟨2, _⟩ => rfl | ⟨3, _⟩ => rfl
  have er : ∀ k : Fin 32, ridx_main_v11 (ix4 b s n m) k = ix4 b s m k := fun k => funext fun a => by
    match a with | ⟨0, _⟩ => rfl | ⟨1, _⟩ => rfl | ⟨2, _⟩ => rfl | ⟨3, _⟩ => rfl
  unfold score
  exact congrArg (· * scale) (Finset.sum_congr rfl fun k _ => by rw [el, er, v6_eq, v8_eq])

/-- Putting column `k` back into the reduced index (b, s, n) gives (b, s, n, k). -/
theorem lift_ix3 (h : S16x4096x8x8.Reduces [3] S16x4096x8) (b : Fin 16) (s : Fin 4096) (n : Fin 8)
    (k : Fin (S16x4096x8x8.size 3)) : h.lift (ix3 b s n) k = ix4 b s n (⟨k.val, k.isLt⟩ : Fin 8) := by
  funext c; apply Fin.ext
  fin_cases c <;> rfl

/-- The row maximum: the fold of `max` from the floor over the eight scores of row n. -/
theorem v14_eq (b : Fin 16) (s : Fin 4096) (n : Fin 8) :
    val_main_v14 (F := Ideal) x0 x1 x2 (ix3 b s n) = top (rowS x0 b s) x1 x2 n := by
  have h : S16x4096x8x8.Reduces [3] S16x4096x8 := by decide
  unfold val_main_v14
  rw [Host.reduce_eq_fold_single FloatOps.maximumf _ _ reducesTo_S16x4096x8x8_S16x4096x8_d3 h h_S_]
  have hf : (val_main_v13 (F := Ideal) x0 x1 x2 ∘ h.lift (ix3 b s n)) = fun m : Fin 8 => score (rowS x0 b s) x1 x2 n m :=
    funext fun k => by
      show val_main_v13 (F := Ideal) x0 x1 x2 (h.lift (ix3 b s n) k) = _
      rw [lift_ix3, v13_eq]
      rfl
  rw [hf]
  rfl

/-- −∞ is the least extended real, so the maximum with it changes nothing. -/
theorem floor_max (y : EReal) : max (Ideal.ofBits .f32 0xFF800000#32) y = y := by
  simp [Ideal.ofBits, Ideal.ieee]

theorem v16_eq (b : Fin 16) (s : Fin 4096) (n : Fin 8) :
    val_main_v16 (F := Ideal) x0 x1 x2 (ix3 b s n) = top (rowS x0 b s) x1 x2 n := by
  rw [val_main_v16_apply, val_main_v15_apply, val_main_cst_1_apply, v14_eq]
  exact floor_max _

/-- exp(score − row maximum). -/
theorem v20_eq (b : Fin 16) (s : Fin 4096) (n m : Fin 8) :
    val_main_v20 (F := Ideal) x0 x1 x2 (ix4 b s n m) = weight (rowS x0 b s) x1 x2 n m := by
  rw [val_main_v20_apply, val_main_v19_apply, v13_eq, val_main_v18_apply, val_main_v17_apply]
  have e : idx_main_v17 (idx_main_v18 (ix4 b s n m)) = ix3 b s n := funext fun a => by
    match a with | ⟨0, _⟩ => rfl | ⟨1, _⟩ => rfl | ⟨2, _⟩ => rfl
  rw [e, v16_eq]
  rfl

/-- The row sum of the weights (the sum starts from the zero word). -/
theorem v21_eq (b : Fin 16) (s : Fin 4096) (n : Fin 8) :
    val_main_v21 (F := Ideal) x0 x1 x2 (ix3 b s n) = mass (rowS x0 b s) x1 x2 n := by
  rw [val_main_v21_apply, val_main_cst_2_apply]
  have e : ∀ k : Fin 8, idx_main_v21 (ix3 b s n) k = ix4 b s n k := fun k => funext fun a => by
    match a with | ⟨0, _⟩ => rfl | ⟨1, _⟩ => rfl | ⟨2, _⟩ => rfl | ⟨3, _⟩ => rfl
  have z : (FloatOps.ofBits .f32 0x00000000#32 : Ideal .f32) = 0 := Ideal.ofBits_zero_f32
  rw [z, zero_add]
  unfold mass
  exact Finset.sum_congr rfl fun k _ => by rw [e, v20_eq]

/-- weight / row sum. -/
theorem v24_eq (b : Fin 16) (s : Fin 4096) (n m : Fin 8) :
    val_main_v24 (F := Ideal) x0 x1 x2 (ix4 b s n m) = attn (rowS x0 b s) x1 x2 n m := by
  rw [val_main_v24_apply, v20_eq, val_main_v23_apply, val_main_v22_apply]
  have e : idx_main_v22 (idx_main_v23 (ix4 b s n m)) = ix3 b s n := funext fun a => by
    match a with | ⟨0, _⟩ => rfl | ⟨1, _⟩ => rfl | ⟨2, _⟩ => rfl
  rw [e, v21_eq]
  rfl

/-- v's rows mixed by the weights of row n. -/
theorem v25_eq (b : Fin 16) (s : Fin 4096) (n : Fin 8) (d : Fin 32) :
    val_main_v25 (F := Ideal) x0 x1 x2 (ix4 b s n d) = mixed (rowS x0 b s) x1 x2 n d := by
  rw [val_main_v25_apply]
  have el : ∀ k : Fin 8, lidx_main_v25 (ix4 b s n d) k = ix4 b s n k := fun k => funext fun a => by
    match a with | ⟨0, _⟩ => rfl | ⟨1, _⟩ => rfl | ⟨2, _⟩ => rfl | ⟨3, _⟩ => rfl
  have er : ∀ k : Fin 8, ridx_main_v25 (ix4 b s n d) k = ix4 b s k d := fun k => funext fun a => by
    match a with | ⟨0, _⟩ => rfl | ⟨1, _⟩ => rfl | ⟨2, _⟩ => rfl | ⟨3, _⟩ => rfl
  unfold mixed
  exact Finset.sum_congr rfl fun k _ => by rw [el, er, v24_eq, v10_eq]

/-- Pixel (h, w) of an image is its pixel number 64·h + w. -/
def pix (h w : Fin 64) : Fin 4096 := ⟨h.val * 64 + w.val, by omega⟩

theorem rowS_pix (b : Fin 16) (h w : Fin 64) : rowS x0 b (pix h w) = row x0 b h w := by
  have e1 : hOf (pix h w) = h := Fin.ext (by show (h.val * 64 + w.val) / 64 = h.val; omega)
  have e2 : wOf (pix h w) = w := Fin.ext (by show (h.val * 64 + w.val) % 64 = w.val; omega)
  unfold rowS; rw [e1, e2]

/-- The reshape back to [16, 64, 64, 256]: channel c is head c / 32, lane c % 32 of the mixed table. -/
theorem v26_eq (b : Fin 16) (h w : Fin 64) (c : Fin 256) :
    val_main_v26 (F := Ideal) x0 x1 x2 (ix4 b h w c) = mixed (row x0 b h w) x1 x2 (headOf c) (laneOf c) := by
  rw [val_main_v26_apply]
  have e : idx_main_v26 (ix4 b h w c) = ix4 b (pix h w) (headOf c) (laneOf c) := funext fun a => Fin.ext (by
    have hb := b.isLt; have hh := h.isLt; have hw := w.isLt; have hc := c.isLt
    match a with
    | ⟨0, _⟩ => show ((((b.val * 64 + h.val) * 64 + w.val) * 256 + c.val) / 1048576) = b.val; omega
    | ⟨1, _⟩ => show ((((b.val * 64 + h.val) * 64 + w.val) * 256 + c.val) / 256 % 4096) = h.val * 64 + w.val; omega
    | ⟨2, _⟩ => show ((((b.val * 64 + h.val) * 64 + w.val) * 256 + c.val) / 32 % 8) = c.val / 32; omega
    | ⟨3, _⟩ => show ((((b.val * 64 + h.val) * 64 + w.val) * 256 + c.val) % 32) = c.val % 32; omega)
  rw [e, v25_eq, rowS_pix]

/-- The second affine map and the residual: the pixel's output row. -/
theorem v31_eq (b : Fin 16) (h w : Fin 64) (c : Fin 256) :
    val_main_v31 (F := Ideal) x0 x1 x2 x3 x4 (ix4 b h w c) = outRow (row x0 b h w) x1 x2 x3 x4 c := by
  rw [val_main_v31_apply, val_main_v30_apply, val_main_v27_apply, val_main_v29_apply, val_main_v28_apply]
  have el : ∀ k : Fin 256, lidx_main_v27 (ix4 b h w c) k = ix4 b h w k := fun k => funext fun a => by
    match a with | ⟨0, _⟩ => rfl | ⟨1, _⟩ => rfl | ⟨2, _⟩ => rfl | ⟨3, _⟩ => rfl
  have er : ∀ k : Fin 256, ridx_main_v27 (ix4 b h w c) k = ix2 k c := fun k => funext fun a => by
    match a with | ⟨0, _⟩ => rfl | ⟨1, _⟩ => rfl
  have eb : idx_main_v28 (idx_main_v29 (ix4 b h w c)) = ix1 c := funext fun a => by
    match a with | ⟨0, _⟩ => rfl
  rw [eb]
  unfold outRow
  refine congrArg (fun y => x0 (ix4 b h w c) + (y + x4 (ix1 c))) (Finset.sum_congr rfl fun k _ => ?_)
  rw [el, er, v26_eq]

/-- The reference's last stage is `result` of its five arguments. -/
theorem reference_eq :
    Cert.ReferenceIdeal.Read.val_main_v31 (F := Ideal) x0 x1 x2 x3 x4 = Cert.HeadAttention.result x1 x2 x3 x4 x0 := by
  funext i
  obtain ⟨b, h, w, c, rfl⟩ : ∃ b h w c, i = ix4 b h w c := ⟨i 0, i 1, i 2, i 3, eq_ix4 i⟩
  exact v31_eq x0 x1 x2 x3 x4 b h w c

end Cert.HeadAttention.Reference

end
-- ==== Proof.lean ====
/-
  Per-pixel attention over the eight heads of a [16, 64, 64, 256] image: the tiled kernel and the whole-array
  reference compute the same array on the extended reals.

  Both programs send each pixel's 256 channels through a fused affine map to q, k, v (three 8 × 32 tables),
  take the softmax over heads of the scaled 8 × 8 inner products, mix v's rows by it, apply a second affine
  map and add the input (Proof/HeadAttention.lean states this as one function `outRow` of a pixel's row and
  the four weight arrays, and `result` as that function at every pixel). The kernel handles 512 pixels per
  grid point as the rows of a block, and a block's output row depends only on the same input row
  (Proof/KernelRow.lean), so the 128 blocks tile the [65536, 256] array of all pixels with `outRow` of each
  row, and the reshapes on either side make that `result` (Proof/KernelRun.lean). The reference computes the
  same stages on whole arrays, with the pixels indexed (batch, position) in the middle stages
  (Proof/ReferenceRows.lean). The two differ only in tiling, in the order sums are taken, in number formats,
  which are the identity on the extended reals, and in one extra maximum with −∞ in the reference, which is
  the identity too; no law that needs finite values is used, so the precondition is never opened.
  The kernel's idealization rewrites nothing, so the preservation conjunct is trivial; the three frames are
  the generated frame runs (the reference's is its run with the result dropped).
-/
import proofs.«106815_j84817014162138_2_alg».proof.Defs
import proofs.«106815_j84817014162138_2_alg».proof.Proof.Gen.Kernel
import proofs.«106815_j84817014162138_2_alg».proof.Proof.Gen.Kernel.Skeleton
import proofs.«106815_j84817014162138_2_alg».proof.Proof.Gen.Kernel.Launch
import proofs.«106815_j84817014162138_2_alg».proof.Proof.Gen.Kernel.Points
import proofs.«106815_j84817014162138_2_alg».proof.Proof.Gen.Kernel.Frame
import proofs.«106815_j84817014162138_2_alg».proof.Proof.Gen.KernelIdeal
import proofs.«106815_j84817014162138_2_alg».proof.Proof.Gen.KernelIdeal.Skeleton
import proofs.«106815_j84817014162138_2_alg».proof.Proof.Gen.KernelIdeal.Launch
import proofs.«106815_j84817014162138_2_alg».proof.Proof.Gen.KernelIdeal.Points
import proofs.«106815_j84817014162138_2_alg».proof.Proof.Gen.KernelIdeal.Frame
import proofs.«106815_j84817014162138_2_alg».proof.Proof.Gen.ReferenceIdeal
import proofs.«106815_j84817014162138_2_alg».proof.Proof.Gen.Pre_finite_inputs
import proofs.«106815_j84817014162138_2_alg».proof.Proof.Gen.ReferenceIdeal.Run
import proofs.«106815_j84817014162138_2_alg».proof.Proof.Gen.ReferenceIdeal.Read
import proofs.«106815_j84817014162138_2_alg».proof.Proof.HeadAttention
import proofs.«106815_j84817014162138_2_alg».proof.Proof.KernelRow
import proofs.«106815_j84817014162138_2_alg».proof.Proof.KernelRun
import proofs.«106815_j84817014162138_2_alg».proof.Proof.ReferenceRows
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with what it says of the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at `result` of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.HeadAttention.Kernel.kernel_run
    (fun x0 x1 x2 x3 x4 r c => Cert.HeadAttention.KernelRow.out_row x0 x1 x2 x3 x4 r c) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.HeadAttention.Reference.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
